-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x8192x1024 : Shape := ⟨3, ![1, 8192, 1024]⟩
abbrev S3x8192x1024 : Shape := ⟨3, ![3, 8192, 1024]⟩
abbrev S1x1024x1024 : Shape := ⟨3, ![1, 1024, 1024]⟩
abbrev S3x1024x1024 : Shape := ⟨3, ![3, 1024, 1024]⟩
abbrev S1x1024 : Shape := ⟨2, ![1, 1024]⟩
abbrev S3x1024 : Shape := ⟨2, ![3, 1024]⟩
abbrev S3x1x1024 : Shape := ⟨3, ![3, 1, 1024]⟩
abbrev S1x1x1024 : Shape := ⟨3, ![1, 1, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 36
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1x8192x1024, .f32⟩
  | .hbm, ⟨13, _⟩ => ⟨S1x8192x1024, .f32⟩
  | .hbm, ⟨14, _⟩ => ⟨S1x8192x1024, .f32⟩
  | .hbm, ⟨15, _⟩ => ⟨S3x8192x1024, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S3x1024x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S3x1024, .f32⟩
  | .hbm, ⟨24, _⟩ => ⟨S3x1x1024, .f32⟩
  | .hbm, ⟨25, _⟩ => ⟨S3x8192x1024, .bf16⟩
  | .hbm, ⟨26, _⟩ => ⟨S1x8192x1024, .bf16⟩
  | .hbm, ⟨27, _⟩ => ⟨S8192x1024, .bf16⟩
  | .hbm, ⟨28, _⟩ => ⟨S4x2048x1024, .bf16⟩
  | .hbm, ⟨29, _⟩ => ⟨S1x8192x1024, .bf16⟩
  | .hbm, ⟨30, _⟩ => ⟨S8192x1024, .bf16⟩
  | .hbm, ⟨31, _⟩ => ⟨S4x2048x1024, .bf16⟩
  | .hbm, ⟨32, _⟩ => ⟨S1x8192x1024, .bf16⟩
  | .hbm, ⟨33, _⟩ => ⟨S8192x1024, .bf16⟩
  | .hbm, ⟨34, _⟩ => ⟨S4x2048x1024, .bf16⟩
  | .hbm, ⟨35, _⟩ => ⟨S4x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x256x1024, .f32⟩
  | .local _ .vmem, ⟨15, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![3, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x1024_S8192x1024 : S4x2048x1024.ShapeCasts S8192x1024
  bcast_S8192x1024_S1x8192x1024_1_2 : S8192x1024.BroadcastsInDim S1x8192x1024 (![1, 2] : Fin 2 → Fin S1x8192x1024.rank)
  concatenates_S1x8192x1024_S1x8192x1024_S1x8192x1024_S3x8192x1024_d0 : Shape.Concatenates [S1x8192x1024, S1x8192x1024, S1x8192x1024] S3x8192x1024 0
  bcast_S1024x1024_S1x1024x1024_1_2 : S1024x1024.BroadcastsInDim S1x1024x1024 (![1, 2] : Fin 2 → Fin S1x1024x1024.rank)
  concatenates_S1x1024x1024_S1x1024x1024_S1x1024x1024_S3x1024x1024_d0 : Shape.Concatenates [S1x1024x1024, S1x1024x1024, S1x1024x1024] S3x1024x1024 0
  bcast_S1024_S1x1024_1 : S1024.BroadcastsInDim S1x1024 (![1] : Fin 1 → Fin S1x1024.rank)
  concatenates_S1x1024_S1x1024_S1x1024_S3x1024_d0 : Shape.Concatenates [S1x1024, S1x1024, S1x1024] S3x1024 0
  shapeCasts_S3x1024_S3x1x1024 : S3x1024.ShapeCasts S3x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  slices_S3x8192x1024_S1x8192x1024_0_0_0 : S3x8192x1024.Slices ![0, 0, 0] S1x8192x1024
  shapeCasts_S1x8192x1024_S8192x1024 : S1x8192x1024.ShapeCasts S8192x1024
  shapeCasts_S8192x1024_S4x2048x1024 : S8192x1024.ShapeCasts S4x2048x1024
  slices_S3x8192x1024_S1x8192x1024_1_0_0 : S3x8192x1024.Slices ![1, 0, 0] S1x8192x1024
  slices_S3x8192x1024_S1x8192x1024_2_0_0 : S3x8192x1024.Slices ![2, 0, 0] S1x8192x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S256x2048_S256 : S256x2048.Reduces [1] S256
  shapeCasts_S256_S256x1 : S256.ShapeCasts S256x1
  broadcasts_S256x1_S256x2048 : S256x1.Broadcasts S256x2048
  broadcasts_S256x1_S256x1024 : S256x1.Broadcasts S256x1024
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S3x8192x1024.size a
  hwx0_0 : ∀ i : grid0.Coords, EltTy.bits .f32 = 32 ∨ (Rect.block (s := S3x8192x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S3x1024x1024.size a
  hwx0_1 : ∀ i : grid0.Coords, EltTy.bits .f32 = 32 ∨ (Rect.block (s := S3x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S3x1x1024.size a
  hwx0_2 : ∀ i : grid0.Coords, EltTy.bits .f32 = 32 ∨ (Rect.block (s := S3x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S3x8192x1024.size a
  hwx0_3 : ∀ i : grid0.Coords, EltTy.bits .bf16 = 32 ∨ (Rect.block (s := S3x8192x1024) S1x1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x2048x1024.size a
  hwx1_3 : ∀ i : grid1.Coords, EltTy.bits .f32 = 32 ∨ (Rect.block (s := S4x2048x1024) S1x256x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v6) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.BitsFrameProj.lean ====
/-
  The projection region (the first pallas_call) on one core, at the buffer contents `V` it is entered from.

  Its grid is 3 × 8: point (p, i) reads rows [1024·i, 1024·(i+1)) of member p of the stacked inputs, the whole of member p
  of the stacked weights and of the stacked biases, and writes the same rows of member p of the stacked result.
  The body loads the three blocks whole, computes ONE value from them and stores it over the whole output block, so
  after the body the output's staging buffer holds that value whatever it held before; the inputs' staging buffers are
  only read. This module states that as the pipeline's proof data and proves the body's obligation at every point.
-/
import proofs.«110285_j68805376082495_2_alg».proof.Proof.Gen.Kernel.Launch
import proofs.«110285_j68805376082495_2_alg».proof.Proof.Gen.Kernel.Skeleton
import proofs.«110285_j68805376082495_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    kept it from an earlier point with the same block index. -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- Input window 1's current staging buffer holds its block at every point, whether the pipeline fetched it there or
    kept it from an earlier point with the same block index. -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-- Input window 2's current staging buffer holds its block at every point, whether the pipeline fetched it there or
    kept it from an earlier point with the same block index. -/
theorem projBefore2_of {c : Dev nD} (dat : Dat τ (Elt F) Unit ℕ (UR sig nD τ) ℕ cfg0 c) (hA : dat.A 2 = V c (Pipeline.arrRef spec0 2))
    (hafter : ∀ t, dat.after 2 t = projBlk V c 2 t) (t : Fin cfg0.N) (d) : dat.before 2 t d = projBlk V c 2 t :=
  (dat.before_in_eq_fetched 2 rfl (fun _ => rfl) (fun _ _ _ => rfl) (fun t => by rw [hafter]; unfold Dat.blockOf projBlk; rw [hA]; try rfl) t d).trans
    (by unfold Dat.fetched Dat.blockOf projBlk; rw [hA]; try rfl)

/-! ## What the body stores -/

/-- The whole input / weight / output block, and the whole bias block. -/
abbrev rMat : Rect S1x1024x1024 := Rect.unit (s := S1x1024x1024) ![0, 0, 0] S1x1024x1024.size inb_S1x1024x1024_S1x1024x1024_0_0_0
abbrev rBias : Rect S1x1x1024 := Rect.unit (s := S1x1x1024) ![0, 0, 0] S1x1x1024.size inb_S1x1x1024_S1x1x1024_0_0_0

/-- The output's staging buffer after the body, from the three input blocks: its one store. -/
def projOut (x0 x1 : Vec F S1x1024x1024 .f32) (x2 : Vec F S1x1x1024 .f32) : Vec F S1x1024x1024 .bf16 :=
  View.canon [⟨rMat, k0_pay1 (View.ld x0 rMat) (View.ld x1 rMat) (View.ld x2 rBias)⟩]

/-- The one store covers the buffer. -/
theorem projCover (p0 : Vec F S1x1024x1024 .bf16) (y : S1x1024x1024.Idx) :
    ∃ pc ∈ ([⟨rMat, p0⟩] : List (View.Piece (Elt F) S1x1024x1024 .bf16)), y ∈ pc.1.set :=
  View.cover_of_tiled [⟨rMat, p0⟩] S1x1024x1024.size (by rfl) y

/-! ## The body's triple -/

set_option maxHeartbeats 1000000 in
/-- The body on whole staging memrefs, the inputs' at contents `x0 x1 x2` and the output's at anything, runs to the
    continuation holding the inputs' as they were and the output's at `projOut x0 x1 x2`. -/
theorem projKernel (c : Dev nD) (E : Set ℕ) (i : grid0.Coords)
    (arg2 : Memref sig .tc .vmem S1x1024x1024 .f32) (harg2 : arg2.IsWhole) (arg3 : Memref sig .tc .vmem S1x1024x1024 .f32) (harg3 : arg3.IsWhole)
    (arg4 : Memref sig .tc .vmem S1x1x1024 .f32) (harg4 : arg4.IsWhole) (arg5 : Memref sig .tc .vmem S1x1024x1024 .bf16) (harg5 : arg5.IsWhole)
    (x0 x1 : Vec F S1x1024x1024 .f32) (x2 : Vec F S1x1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (projOut x0 x1 x2)) -∗ K ⟨⟩))
      ⊢ wp frame (wpE (defs₀ (F := F)) Variants.none c none) E (cc0__proj_all_kernel i arg2 harg2 arg3 harg3 arg4 harg4 arg5 harg5) K := by
  simp only [cc0__proj_all_kernel_eq_skeleton]; unfold cc0__proj_all_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-! ## The pipeline's proof data -/

/-- The proof data of the projection pipeline on core `c`: the arrays as the region finds them; after the body at point `t`
    each input's buffer at its block and the output's at `projOut` of the input blocks; the invariant is the scoped rest and
    the generator register, untouched; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projBlk V c 2 t
    | ⟨3, _⟩ => projOut (projBlk V c 0 t) (projBlk V c 1 t) (projBlk V c 2 t)
  Φ _ := Pipeline.ΦA spec0 c
  q _ := fullShare
  owed _ := 0

theorem projA_eq (c : Dev nD) (w : Fin cfg0.W) : (projDat V c).A w = V c (Pipeline.arrRef spec0 w) := by
  dsimp only [projDat]

theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projBlk V c 2 t := by dsimp only [projDat]
theorem projAfter3 (c : Dev nD) (t : Fin cfg0.N) :
    (projDat V c).after 3 t = projOut (projBlk V c 0 t) (projBlk V c 1 t) (projBlk V c 2 t) := by dsimp only [projDat]

theorem projBefore0 (c : Dev nD) (t : Fin cfg0.N) (d) : (projDat V c).before 0 t d = projBlk V c 0 t :=
  projBefore0_of V (projDat V c) (projA_eq V c 0) (projAfter0 V c) t d
theorem projBefore1 (c : Dev nD) (t : Fin cfg0.N) (d) : (projDat V c).before 1 t d = projBlk V c 1 t :=
  projBefore1_of V (projDat V c) (projA_eq V c 1) (projAfter1 V c) t d
theorem projBefore2 (c : Dev nD) (t : Fin cfg0.N) (d) : (projDat V c).before 2 t d = projBlk V c 2 t :=
  projBefore2_of V (projDat V c) (projA_eq V c 2) (projAfter2 V c) t d

/-! ## The body obligation -/

/-- What the body is called with at point `t`, the windows one by one, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d))
    ∗ (∃ d, owns (c : Thread nD τ) (st0_3 t) fullShare ((projDat V c).before 3 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t)
    ∗ owns (c : Thread nD τ) (st0_3 t) fullShare ((projDat V c).after 3 t))

/-- The body at any point: the inputs' memrefs hold their blocks, so `projKernel` applies; the invariant and the core's
    debts pass through unread. -/
theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1, projBefore2]
  rw [show (projDat V c).Φ t.succ = (projDat V c).Φ t.castSucc from rfl,
    show (projDat V c).owesAt () t.succ = (projDat V c).owesAt () t.castSucc from rfl,
    projAfter0, projAfter1, projAfter2, projAfter3]
  iintro ⟨HΦ, Ho, ⟨%d0, H0⟩, ⟨%d1, H1⟩, ⟨%d2, H2⟩, ⟨%d3, H3⟩⟩
  iapply (projKernel c Set.univ (grid0.coords t) _ _ _ _ _ _ _ _ (projBlk V c 0 t) (projBlk V c 1 t) (projBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem projObligation (c : Dev nD) : BodyObligation (projDat (F := F) V c) (defs₀ (F := F)) Variants.none () Set.univ := fun t => by
  rw [bigSep_W0, bigSep_W0]
  exact projBody V c t

end Cert.Kernel.Run

end
-- ==== Proof.BitsFrameAttn.lean ====
/-
  The attention region (the second pallas_call) on one core, at the buffer contents `V` it is entered from.

  Its grid is 4 × 8: point (n, i) reads query rows [256·i, 256·(i+1)) of batch entry n, the WHOLE key and value
  sequences of batch entry n, and writes output rows [256·i, 256·(i+1)) of batch entry n. The body loads the three blocks
  whole, computes one value from them and stores it over the whole output block; the inputs' staging buffers are only
  read. This module states that as the pipeline's proof data and proves the body's obligation at every point.
-/
import proofs.«110285_j68805376082495_2_alg».proof.Proof.Gen.Kernel.Launch
import proofs.«110285_j68805376082495_2_alg».proof.Proof.Gen.Kernel.Skeleton
import proofs.«110285_j68805376082495_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    kept it from an earlier point with the same block index. -/
theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

/-- Input window 1's current staging buffer holds its block at every point, whether the pipeline fetched it there or
    kept it from an earlier point with the same block index. -/
theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

/-- Input window 2's current staging buffer holds its block at every point, whether the pipeline fetched it there or
    kept it from an earlier point with the same block index. -/
theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-! ## What the body stores -/

/-- The whole query / output block, and the whole key / value block. -/
abbrev rQ : Rect S1x256x1024 := Rect.unit (s := S1x256x1024) ![0, 0, 0] S1x256x1024.size inb_S1x256x1024_S1x256x1024_0_0_0
abbrev rKV : Rect S1x2048x1024 := Rect.unit (s := S1x2048x1024) ![0, 0, 0] S1x2048x1024.size inb_S1x2048x1024_S1x2048x1024_0_0_0

/-- The output's staging buffer after the body, from the three input blocks: its one store. -/
def attnOut (x0 : Vec F S1x256x1024 .bf16) (x1 x2 : Vec F S1x2048x1024 .bf16) : Vec F S1x256x1024 .f32 :=
  View.canon [⟨rQ, k1_pay1 (View.ld x0 rQ) (View.ld x1 rKV) (View.ld x2 rKV)⟩]

/-- The one store covers the buffer. -/
theorem attnCover (p0 : Vec F S1x256x1024 .f32) (y : S1x256x1024.Idx) :
    ∃ pc ∈ ([⟨rQ, p0⟩] : List (View.Piece (Elt F) S1x256x1024 .f32)), y ∈ pc.1.set :=
  View.cover_of_tiled [⟨rQ, p0⟩] S1x256x1024.size (by rfl) y

/-! ## The body's triple -/

set_option maxHeartbeats 1000000 in
/-- The body on whole staging memrefs, the inputs' at contents `x0 x1 x2` and the output's at anything, runs to the
    continuation holding the inputs' as they were and the output's at `attnOut x0 x1 x2`. -/
theorem attnKernel (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x256x1024 .f32) (harg5 : arg5.IsWhole)
    (x0 : Vec F S1x256x1024 .bf16) (x1 x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (attnOut x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attnCover _)

/-! ## The pipeline's proof data -/

/-- The proof data of the attention pipeline on core `c`: the arrays as the region finds them; after the body at point `t`
    each input's buffer at its block and the output's at `attnOut` of the input blocks; the invariant is the scoped rest and
    the generator register, untouched; nothing owed; full shares. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnOut (attnBlk V c 0 t) (attnBlk V c 1 t) (attnBlk V c 2 t)
  Φ _ := Pipeline.ΦA spec1 c
  q _ := fullShare
  owed _ := 0

theorem attnA_eq (c : Dev nD) (w : Fin cfg1.W) : (attnDat V c).A w = V c (Pipeline.arrRef spec1 w) := by
  dsimp only [attnDat]

theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) :
    (attnDat V c).after 3 t = attnOut (attnBlk V c 0 t) (attnBlk V c 1 t) (attnBlk V c 2 t) := by dsimp only [attnDat]

theorem attnBefore0 (c : Dev nD) (t : Fin cfg1.N) (d) : (attnDat V c).before 0 t d = attnBlk V c 0 t :=
  attnBefore0_of V (attnDat V c) (attnA_eq V c 0) (attnAfter0 V c) t d
theorem attnBefore1 (c : Dev nD) (t : Fin cfg1.N) (d) : (attnDat V c).before 1 t d = attnBlk V c 1 t :=
  attnBefore1_of V (attnDat V c) (attnA_eq V c 1) (attnAfter1 V c) t d
theorem attnBefore2 (c : Dev nD) (t : Fin cfg1.N) (d) : (attnDat V c).before 2 t d = attnBlk V c 2 t :=
  attnBefore2_of V (attnDat V c) (attnA_eq V c 2) (attnAfter2 V c) t d

/-! ## The body obligation -/

/-- What the body is called with at point `t`, the windows one by one, -/
def attnPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d))
    ∗ (∃ d, owns (c : Thread nD τ) (st1_3 t) fullShare ((attnDat V c).before 3 t d)))

/-- and what it returns. -/
def attnPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t)
    ∗ owns (c : Thread nD τ) (st1_3 t) fullShare ((attnDat V c).after 3 t))

/-- The body at any point: the inputs' memrefs hold their blocks, so `attnKernel` applies; the invariant and the core's
    debts pass through unread. -/
theorem attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore0, attnBefore1, attnBefore2]
  rw [show (attnDat V c).Φ t.succ = (attnDat V c).Φ t.castSucc from rfl,
    show (attnDat V c).owesAt () t.succ = (attnDat V c).owesAt () t.castSucc from rfl,
    attnAfter0, attnAfter1, attnAfter2, attnAfter3]
  iintro ⟨HΦ, Ho, ⟨%d0, H0⟩, ⟨%d1, H1⟩, ⟨%d2, H2⟩, ⟨%d3, H3⟩⟩
  iapply (attnKernel c Set.univ (grid1.coords t) _ _ _ _ _ _ _ _ (attnBlk V c 0 t) (attnBlk V c 1 t) (attnBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem attnObligation (c : Dev nD) : BodyObligation (attnDat (F := F) V c) (defs₀ (F := F)) Variants.none () Set.univ := fun t => by
  rw [bigSep_W1, bigSep_W1]
  exact attnBody V c t

end Cert.Kernel.Run

end
-- ==== Proof.BitsFrameRun.lean ====
/-
  The whole run of @main on the TensorCores: sixteen host operations (the three inputs, weights and biases reshaped and
  stacked), the projection region, nine host operations (the three members of the projected stack sliced out and reshaped
  back to [4, 2048, 1024]), the attention region.

  The buffer contents at each of the five boundaries are a fold from the launch memory: a host stretch applies its
  operations, a region leaves its windows' arrays at what its write-backs fold to and every other buffer as entered.
  Every weakly fair execution terminates, faults nowhere, and ends with EVERY unscoped buffer at the last contents of
  that fold: the argument arrays (which nothing writes) as launched, and the result array at what the attention
  region's write-backs leave.
-/
import proofs.«110285_j68805376082495_2_alg».proof.Proof.Gen.Kernel.Launch
import proofs.«110285_j68805376082495_2_alg».proof.Proof.Gen.Kernel.Skeleton
import proofs.«110285_j68805376082495_2_alg».proof.Proof.Gen.Kernel.Points
import proofs.«110285_j68805376082495_2_alg».proof.Proof.BitsFrameProj
import proofs.«110285_j68805376082495_2_alg».proof.Proof.BitsFrameAttn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (projDat (V1 m ρ) c).arrAt w cfg0.N
theorem W2_arr (c : Dev nD) (w : Fin cfg0.W) :
    W2 m ρ c (Proc.devRef .tc (Pipeline.arrRef spec0 w)) = (projDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (projDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (attnDat (V3 m ρ) c).arrAt w cfg1.N
theorem W4_arr (c : Dev nD) (w : Fin cfg1.W) :
    W4 m ρ c (Proc.devRef .tc (Pipeline.arrRef spec1 w)) = (attnDat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (attnDat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => projDat (V1 m ρ) c
  | ⟨1, _⟩ => fun c => attnDat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, at
    nothing. -/
abbrev rest (c : Dev nD) : sProp 𝕄 := iprop((∃ r, prngReg c r) ∗ ∃ W, owes (c : Thread nD τ) (0 : CellTallies nD τ sig Unit) W)
/-- A host stretch as a segment over the unscoped references from the contents `W`, `rest` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- No host operation allocates a buffer. -/
theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some
    state. -/
abbrev endState (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its windows' arrays are split
    out of the unscoped buffers and put back at the contents the write-backs leave; the generator register goes into the
    pipeline's invariant and comes back; nothing is owed; the kernel has no semaphore of its own. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (projObligation (V1 m ρ) c).loose
  hwaits := Pipeline.hwaits_of_owed_zero _ _ _ _ L lv 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows' arrays are split
    out of the unscoped buffers and put back at the contents the write-backs leave; the generator register goes into the
    pipeline's invariant and comes back; nothing is owed; the kernel has no semaphore of its own. -/
def attnSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (attnObligation (V3 m ρ) c).loose
  hwaits := Pipeline.hwaits_of_owed_zero _ _ _ _ L lv 1 fun _ _ => rfl
  pre c := iprop(StableHlo.held (c : Thread nD τ) (Pipeline.ucRefs τ sig) (W3 m ρ c) ∗ rest c)
  post c := iprop(endState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's four segments in order. -/
abbrev segs : List (Pipeline.Seg (pcfgs (F := F)) adm (pdats m ρ) () defs₀ 𝒱₀ L lv) :=
  [ .host (hseg hostOps0 hostOps0_sub ops0_fresh (W0 m ρ)),
    .region (projSeg m ρ),
    .host (hseg hostOps1 hostOps1_sub ops1_fresh (W2 m ρ)),
    .region (attnSeg m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := endState m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Run

end
-- ==== Proof.BitsFrameArgs.lean ====
/-
  The argument arrays through the run: no host operation writes one and no region's output window is one, so the fold of
  buffer contents, read at an argument, walks back to the launch memory.
-/
import proofs.«110285_j68805376082495_2_alg».proof.Proof.Gen.Kernel.Launch
import proofs.«110285_j68805376082495_2_alg».proof.Proof.Gen.Kernel.Skeleton
import proofs.«110285_j68805376082495_2_alg».proof.Proof.Gen.Kernel.Points
import proofs.«110285_j68805376082495_2_alg».proof.Proof.Gen.Kernel.Regions
import proofs.«110285_j68805376082495_2_alg».proof.Proof.BitsFrameRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that neither host stretch writes and that is no window's array of either region ends as launched. -/
theorem W4_untouched (c : Dev nD) (r : Ref sig .tc) (h0 : r ∉ hostOps0_W) (h1 : r ∉ hostOps1_W)
    (hw0 : ∀ w, Pipeline.arrRef spec0 w ≠ r) (hw1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r hw1
    _ = W2 m ρ c (Proc.devRef .tc r) := StableHlo.after_of_writes_sub hostOps1 _ hostOps1_writes h1
    _ = W1 m ρ c (Proc.devRef .tc r) := W2_of_ne m ρ c r hw0
    _ = W0 m ρ c (Proc.devRef .tc r) := StableHlo.after_of_writes_sub hostOps0 _ hostOps0_writes h0
    _ = m ((c : Thread nD τ).loc r) := rfl

theorem W4_arg0 (c : Dev nD) : W4 m ρ c (Proc.devRef .tc main_arg0) = m ((c : Thread nD τ).loc main_arg0) :=
  W4_untouched m ρ c main_arg0 (by decide) (by decide) (by decide) (by decide)
theorem W4_arg1 (c : Dev nD) : W4 m ρ c (Proc.devRef .tc main_arg1) = m ((c : Thread nD τ).loc main_arg1) :=
  W4_untouched m ρ c main_arg1 (by decide) (by decide) (by decide) (by decide)
theorem W4_arg2 (c : Dev nD) : W4 m ρ c (Proc.devRef .tc main_arg2) = m ((c : Thread nD τ).loc main_arg2) :=
  W4_untouched m ρ c main_arg2 (by decide) (by decide) (by decide) (by decide)
theorem W4_arg3 (c : Dev nD) : W4 m ρ c (Proc.devRef .tc main_arg3) = m ((c : Thread nD τ).loc main_arg3) :=
  W4_untouched m ρ c main_arg3 (by decide) (by decide) (by decide) (by decide)
theorem W4_arg4 (c : Dev nD) : W4 m ρ c (Proc.devRef .tc main_arg4) = m ((c : Thread nD τ).loc main_arg4) :=
  W4_untouched m ρ c main_arg4 (by decide) (by decide) (by decide) (by decide)
theorem W4_arg5 (c : Dev nD) : W4 m ρ c (Proc.devRef .tc main_arg5) = m ((c : Thread nD τ).loc main_arg5) :=
  W4_untouched m ρ c main_arg5 (by decide) (by decide) (by decide) (by decide)
theorem W4_arg6 (c : Dev nD) : W4 m ρ c (Proc.devRef .tc main_arg6) = m ((c : Thread nD τ).loc main_arg6) :=
  W4_untouched m ρ c main_arg6 (by decide) (by decide) (by decide) (by decide)
theorem W4_arg7 (c : Dev nD) : W4 m ρ c (Proc.devRef .tc main_arg7) = m ((c : Thread nD τ).loc main_arg7) :=
  W4_untouched m ρ c main_arg7 (by decide) (by decide) (by decide) (by decide)
theorem W4_arg8 (c : Dev nD) : W4 m ρ c (Proc.devRef .tc main_arg8) = m ((c : Thread nD τ).loc main_arg8) :=
  W4_untouched m ρ c main_arg8 (by decide) (by decide) (by decide) (by decide)

/-- THE FRAME: every weakly fair execution terminates, faults nowhere, and ends with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_arg0 m ρ c), (h c _ (mem_uc main_arg1 (by decide))).trans (W4_arg1 m ρ c),
     (h c _ (mem_uc main_arg2 (by decide))).trans (W4_arg2 m ρ c), (h c _ (mem_uc main_arg3 (by decide))).trans (W4_arg3 m ρ c),
     (h c _ (mem_uc main_arg4 (by decide))).trans (W4_arg4 m ρ c), (h c _ (mem_uc main_arg5 (by decide))).trans (W4_arg5 m ρ c),
     (h c _ (mem_uc main_arg6 (by decide))).trans (W4_arg6 m ρ c), (h c _ (mem_uc main_arg7 (by decide))).trans (W4_arg7 m ρ c),
     (h c _ (mem_uc main_arg8 (by decide))).trans (W4_arg8 m ρ c)⟩)
    (run_all m ρ)

end Cert.Kernel.Run

end
-- ==== Proof.FrameProj.lean ====
/-
  The projection region (the first pallas_call) on one core, at the buffer contents `V` it is entered from.

  Its grid is 3 × 8: point (p, i) reads rows [1024·i, 1024·(i+1)) of member p of the stacked inputs, the whole of member p
  of the stacked weights and of the stacked biases, and writes the same rows of member p of the stacked result.
  The body loads the three blocks whole, computes ONE value from them and stores it over the whole output block, so
  after the body the output's staging buffer holds that value whatever it held before; the inputs' staging buffers are
  only read. This module states that as the pipeline's proof data and proves the body's obligation at every point.
-/
import proofs.«110285_j68805376082495_2_alg».proof.Proof.Gen.KernelIdeal.Launch
import proofs.«110285_j68805376082495_2_alg».proof.Proof.Gen.KernelIdeal.Skeleton
import proofs.«110285_j68805376082495_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    kept it from an earlier point with the same block index. -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- Input window 1's current staging buffer holds its block at every point, whether the pipeline fetched it there or
    kept it from an earlier point with the same block index. -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-- Input window 2's current staging buffer holds its block at every point, whether the pipeline fetched it there or
    kept it from an earlier point with the same block index. -/
theorem projBefore2_of {c : Dev nD} (dat : Dat τ (Elt F) Unit ℕ (UR sig nD τ) ℕ cfg0 c) (hA : dat.A 2 = V c (Pipeline.arrRef spec0 2))
    (hafter : ∀ t, dat.after 2 t = projBlk V c 2 t) (t : Fin cfg0.N) (d) : dat.before 2 t d = projBlk V c 2 t :=
  (dat.before_in_eq_fetched 2 rfl (fun _ => rfl) (fun _ _ _ => rfl) (fun t => by rw [hafter]; unfold Dat.blockOf projBlk; rw [hA]; try rfl) t d).trans
    (by unfold Dat.fetched Dat.blockOf projBlk; rw [hA]; try rfl)

/-! ## What the body stores -/

/-- The whole input / weight / output block, and the whole bias block. -/
abbrev rMat : Rect S1x1024x1024 := Rect.unit (s := S1x1024x1024) ![0, 0, 0] S1x1024x1024.size inb_S1x1024x1024_S1x1024x1024_0_0_0
abbrev rBias : Rect S1x1x1024 := Rect.unit (s := S1x1x1024) ![0, 0, 0] S1x1x1024.size inb_S1x1x1024_S1x1x1024_0_0_0

/-- The output's staging buffer after the body, from the three input blocks: its one store. -/
def projOut (x0 x1 : Vec F S1x1024x1024 .f32) (x2 : Vec F S1x1x1024 .f32) : Vec F S1x1024x1024 .bf16 :=
  View.canon [⟨rMat, k0_pay1 (View.ld x0 rMat) (View.ld x1 rMat) (View.ld x2 rBias)⟩]

/-- The one store covers the buffer. -/
theorem projCover (p0 : Vec F S1x1024x1024 .bf16) (y : S1x1024x1024.Idx) :
    ∃ pc ∈ ([⟨rMat, p0⟩] : List (View.Piece (Elt F) S1x1024x1024 .bf16)), y ∈ pc.1.set :=
  View.cover_of_tiled [⟨rMat, p0⟩] S1x1024x1024.size (by rfl) y

/-! ## The body's triple -/

set_option maxHeartbeats 1000000 in
/-- The body on whole staging memrefs, the inputs' at contents `x0 x1 x2` and the output's at anything, runs to the
    continuation holding the inputs' as they were and the output's at `projOut x0 x1 x2`. -/
theorem projKernel (c : Dev nD) (E : Set ℕ) (i : grid0.Coords)
    (arg2 : Memref sig .tc .vmem S1x1024x1024 .f32) (harg2 : arg2.IsWhole) (arg3 : Memref sig .tc .vmem S1x1024x1024 .f32) (harg3 : arg3.IsWhole)
    (arg4 : Memref sig .tc .vmem S1x1x1024 .f32) (harg4 : arg4.IsWhole) (arg5 : Memref sig .tc .vmem S1x1024x1024 .bf16) (harg5 : arg5.IsWhole)
    (x0 x1 : Vec F S1x1024x1024 .f32) (x2 : Vec F S1x1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (projOut x0 x1 x2)) -∗ K ⟨⟩))
      ⊢ wp frame (wpE (defs₀ (F := F)) Variants.none c none) E (cc0__proj_all_kernel i arg2 harg2 arg3 harg3 arg4 harg4 arg5 harg5) K := by
  simp only [cc0__proj_all_kernel_eq_skeleton]; unfold cc0__proj_all_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-! ## The pipeline's proof data -/

/-- The proof data of the projection pipeline on core `c`: the arrays as the region finds them; after the body at point `t`
    each input's buffer at its block and the output's at `projOut` of the input blocks; the invariant is the scoped rest and
    the generator register, untouched; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projBlk V c 2 t
    | ⟨3, _⟩ => projOut (projBlk V c 0 t) (projBlk V c 1 t) (projBlk V c 2 t)
  Φ _ := Pipeline.ΦA spec0 c
  q _ := fullShare
  owed _ := 0

theorem projA_eq (c : Dev nD) (w : Fin cfg0.W) : (projDat V c).A w = V c (Pipeline.arrRef spec0 w) := by
  dsimp only [projDat]

theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projBlk V c 2 t := by dsimp only [projDat]
theorem projAfter3 (c : Dev nD) (t : Fin cfg0.N) :
    (projDat V c).after 3 t = projOut (projBlk V c 0 t) (projBlk V c 1 t) (projBlk V c 2 t) := by dsimp only [projDat]

theorem projBefore0 (c : Dev nD) (t : Fin cfg0.N) (d) : (projDat V c).before 0 t d = projBlk V c 0 t :=
  projBefore0_of V (projDat V c) (projA_eq V c 0) (projAfter0 V c) t d
theorem projBefore1 (c : Dev nD) (t : Fin cfg0.N) (d) : (projDat V c).before 1 t d = projBlk V c 1 t :=
  projBefore1_of V (projDat V c) (projA_eq V c 1) (projAfter1 V c) t d
theorem projBefore2 (c : Dev nD) (t : Fin cfg0.N) (d) : (projDat V c).before 2 t d = projBlk V c 2 t :=
  projBefore2_of V (projDat V c) (projA_eq V c 2) (projAfter2 V c) t d

/-! ## The body obligation -/

/-- What the body is called with at point `t`, the windows one by one, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d))
    ∗ (∃ d, owns (c : Thread nD τ) (st0_3 t) fullShare ((projDat V c).before 3 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t)
    ∗ owns (c : Thread nD τ) (st0_3 t) fullShare ((projDat V c).after 3 t))

/-- The body at any point: the inputs' memrefs hold their blocks, so `projKernel` applies; the invariant and the core's
    debts pass through unread. -/
theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1, projBefore2]
  rw [show (projDat V c).Φ t.succ = (projDat V c).Φ t.castSucc from rfl,
    show (projDat V c).owesAt () t.succ = (projDat V c).owesAt () t.castSucc from rfl,
    projAfter0, projAfter1, projAfter2, projAfter3]
  iintro ⟨HΦ, Ho, ⟨%d0, H0⟩, ⟨%d1, H1⟩, ⟨%d2, H2⟩, ⟨%d3, H3⟩⟩
  iapply (projKernel c Set.univ (grid0.coords t) _ _ _ _ _ _ _ _ (projBlk V c 0 t) (projBlk V c 1 t) (projBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem projObligation (c : Dev nD) : BodyObligation (projDat (F := F) V c) (defs₀ (F := F)) Variants.none () Set.univ := fun t => by
  rw [bigSep_W0, bigSep_W0]
  exact projBody V c t

end Cert.KernelIdeal.Run

end
-- ==== Proof.FrameAttn.lean ====
/-
  The attention region (the second pallas_call) on one core, at the buffer contents `V` it is entered from.

  Its grid is 4 × 8: point (n, i) reads query rows [256·i, 256·(i+1)) of batch entry n, the WHOLE key and value
  sequences of batch entry n, and writes output rows [256·i, 256·(i+1)) of batch entry n. The body loads the three blocks
  whole, computes one value from them and stores it over the whole output block; the inputs' staging buffers are only
  read. This module states that as the pipeline's proof data and proves the body's obligation at every point.
-/
import proofs.«110285_j68805376082495_2_alg».proof.Proof.Gen.KernelIdeal.Launch
import proofs.«110285_j68805376082495_2_alg».proof.Proof.Gen.KernelIdeal.Skeleton
import proofs.«110285_j68805376082495_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    kept it from an earlier point with the same block index. -/
theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

/-- Input window 1's current staging buffer holds its block at every point, whether the pipeline fetched it there or
    kept it from an earlier point with the same block index. -/
theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

/-- Input window 2's current staging buffer holds its block at every point, whether the pipeline fetched it there or
    kept it from an earlier point with the same block index. -/
theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-! ## What the body stores -/

/-- The whole query / output block, and the whole key / value block. -/
abbrev rQ : Rect S1x256x1024 := Rect.unit (s := S1x256x1024) ![0, 0, 0] S1x256x1024.size inb_S1x256x1024_S1x256x1024_0_0_0
abbrev rKV : Rect S1x2048x1024 := Rect.unit (s := S1x2048x1024) ![0, 0, 0] S1x2048x1024.size inb_S1x2048x1024_S1x2048x1024_0_0_0

/-- The output's staging buffer after the body, from the three input blocks: its one store. -/
def attnOut (x0 : Vec F S1x256x1024 .bf16) (x1 x2 : Vec F S1x2048x1024 .bf16) : Vec F S1x256x1024 .f32 :=
  View.canon [⟨rQ, k1_pay1 (View.ld x0 rQ) (View.ld x1 rKV) (View.ld x2 rKV)⟩]

/-- The one store covers the buffer. -/
theorem attnCover (p0 : Vec F S1x256x1024 .f32) (y : S1x256x1024.Idx) :
    ∃ pc ∈ ([⟨rQ, p0⟩] : List (View.Piece (Elt F) S1x256x1024 .f32)), y ∈ pc.1.set :=
  View.cover_of_tiled [⟨rQ, p0⟩] S1x256x1024.size (by rfl) y

/-! ## The body's triple -/

set_option maxHeartbeats 1000000 in
/-- The body on whole staging memrefs, the inputs' at contents `x0 x1 x2` and the output's at anything, runs to the
    continuation holding the inputs' as they were and the output's at `attnOut x0 x1 x2`. -/
theorem attnKernel (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x256x1024 .f32) (harg5 : arg5.IsWhole)
    (x0 : Vec F S1x256x1024 .bf16) (x1 x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (attnOut x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attnCover _)

/-! ## The pipeline's proof data -/

/-- The proof data of the attention pipeline on core `c`: the arrays as the region finds them; after the body at point `t`
    each input's buffer at its block and the output's at `attnOut` of the input blocks; the invariant is the scoped rest and
    the generator register, untouched; nothing owed; full shares. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnOut (attnBlk V c 0 t) (attnBlk V c 1 t) (attnBlk V c 2 t)
  Φ _ := Pipeline.ΦA spec1 c
  q _ := fullShare
  owed _ := 0

theorem attnA_eq (c : Dev nD) (w : Fin cfg1.W) : (attnDat V c).A w = V c (Pipeline.arrRef spec1 w) := by
  dsimp only [attnDat]

theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) :
    (attnDat V c).after 3 t = attnOut (attnBlk V c 0 t) (attnBlk V c 1 t) (attnBlk V c 2 t) := by dsimp only [attnDat]

theorem attnBefore0 (c : Dev nD) (t : Fin cfg1.N) (d) : (attnDat V c).before 0 t d = attnBlk V c 0 t :=
  attnBefore0_of V (attnDat V c) (attnA_eq V c 0) (attnAfter0 V c) t d
theorem attnBefore1 (c : Dev nD) (t : Fin cfg1.N) (d) : (attnDat V c).before 1 t d = attnBlk V c 1 t :=
  attnBefore1_of V (attnDat V c) (attnA_eq V c 1) (attnAfter1 V c) t d
theorem attnBefore2 (c : Dev nD) (t : Fin cfg1.N) (d) : (attnDat V c).before 2 t d = attnBlk V c 2 t :=
  attnBefore2_of V (attnDat V c) (attnA_eq V c 2) (attnAfter2 V c) t d

/-! ## The body obligation -/

/-- What the body is called with at point `t`, the windows one by one, -/
def attnPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d))
    ∗ (∃ d, owns (c : Thread nD τ) (st1_3 t) fullShare ((attnDat V c).before 3 t d)))

/-- and what it returns. -/
def attnPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t)
    ∗ owns (c : Thread nD τ) (st1_3 t) fullShare ((attnDat V c).after 3 t))

/-- The body at any point: the inputs' memrefs hold their blocks, so `attnKernel` applies; the invariant and the core's
    debts pass through unread. -/
theorem attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore0, attnBefore1, attnBefore2]
  rw [show (attnDat V c).Φ t.succ = (attnDat V c).Φ t.castSucc from rfl,
    show (attnDat V c).owesAt () t.succ = (attnDat V c).owesAt () t.castSucc from rfl,
    attnAfter0, attnAfter1, attnAfter2, attnAfter3]
  iintro ⟨HΦ, Ho, ⟨%d0, H0⟩, ⟨%d1, H1⟩, ⟨%d2, H2⟩, ⟨%d3, H3⟩⟩
  iapply (attnKernel c Set.univ (grid1.coords t) _ _ _ _ _ _ _ _ (attnBlk V c 0 t) (attnBlk V c 1 t) (attnBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem attnObligation (c : Dev nD) : BodyObligation (attnDat (F := F) V c) (defs₀ (F := F)) Variants.none () Set.univ := fun t => by
  rw [bigSep_W1, bigSep_W1]
  exact attnBody V c t

end Cert.KernelIdeal.Run

end
-- ==== Proof.FrameRun.lean ====
/-
  The whole run of @main on the TensorCores: sixteen host operations (the three inputs, weights and biases reshaped and
  stacked), the projection region, nine host operations (the three members of the projected stack sliced out and reshaped
  back to [4, 2048, 1024]), the attention region.

  The buffer contents at each of the five boundaries are a fold from the launch memory: a host stretch applies its
  operations, a region leaves its windows' arrays at what its write-backs fold to and every other buffer as entered.
  Every weakly fair execution terminates, faults nowhere, and ends with EVERY unscoped buffer at the last contents of
  that fold: the argument arrays (which nothing writes) as launched, and the result array at what the attention
  region's write-backs leave.
-/
import proofs.«110285_j68805376082495_2_alg».proof.Proof.Gen.KernelIdeal.Launch
import proofs.«110285_j68805376082495_2_alg».proof.Proof.Gen.KernelIdeal.Skeleton
import proofs.«110285_j68805376082495_2_alg».proof.Proof.Gen.KernelIdeal.Points
import proofs.«110285_j68805376082495_2_alg».proof.Proof.FrameProj
import proofs.«110285_j68805376082495_2_alg».proof.Proof.FrameAttn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (projDat (V1 m ρ) c).arrAt w cfg0.N
theorem W2_arr (c : Dev nD) (w : Fin cfg0.W) :
    W2 m ρ c (Proc.devRef .tc (Pipeline.arrRef spec0 w)) = (projDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (projDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (attnDat (V3 m ρ) c).arrAt w cfg1.N
theorem W4_arr (c : Dev nD) (w : Fin cfg1.W) :
    W4 m ρ c (Proc.devRef .tc (Pipeline.arrRef spec1 w)) = (attnDat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (attnDat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => projDat (V1 m ρ) c
  | ⟨1, _⟩ => fun c => attnDat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, at
    nothing. -/
abbrev rest (c : Dev nD) : sProp 𝕄 := iprop((∃ r, prngReg c r) ∗ ∃ W, owes (c : Thread nD τ) (0 : CellTallies nD τ sig Unit) W)
/-- A host stretch as a segment over the unscoped references from the contents `W`, `rest` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- No host operation allocates a buffer. -/
theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some
    state. -/
abbrev endState (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its windows' arrays are split
    out of the unscoped buffers and put back at the contents the write-backs leave; the generator register goes into the
    pipeline's invariant and comes back; nothing is owed; the kernel has no semaphore of its own. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (projObligation (V1 m ρ) c).loose
  hwaits := Pipeline.hwaits_of_owed_zero _ _ _ _ L lv 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows' arrays are split
    out of the unscoped buffers and put back at the contents the write-backs leave; the generator register goes into the
    pipeline's invariant and comes back; nothing is owed; the kernel has no semaphore of its own. -/
def attnSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (attnObligation (V3 m ρ) c).loose
  hwaits := Pipeline.hwaits_of_owed_zero _ _ _ _ L lv 1 fun _ _ => rfl
  pre c := iprop(StableHlo.held (c : Thread nD τ) (Pipeline.ucRefs τ sig) (W3 m ρ c) ∗ rest c)
  post c := iprop(endState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's four segments in order. -/
abbrev segs : List (Pipeline.Seg (pcfgs (F := F)) adm (pdats m ρ) () defs₀ 𝒱₀ L lv) :=
  [ .host (hseg hostOps0 hostOps0_sub ops0_fresh (W0 m ρ)),
    .region (projSeg m ρ),
    .host (hseg hostOps1 hostOps1_sub ops1_fresh (W2 m ρ)),
    .region (attnSeg m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := endState m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Run

end
-- ==== Proof.FrameArgs.lean ====
/-
  The argument arrays through the run: no host operation writes one and no region's output window is one, so the fold of
  buffer contents, read at an argument, walks back to the launch memory.
-/
import proofs.«110285_j68805376082495_2_alg».proof.Proof.Gen.KernelIdeal.Launch
import proofs.«110285_j68805376082495_2_alg».proof.Proof.Gen.KernelIdeal.Skeleton
import proofs.«110285_j68805376082495_2_alg».proof.Proof.Gen.KernelIdeal.Points
import proofs.«110285_j68805376082495_2_alg».proof.Proof.Gen.KernelIdeal.Regions
import proofs.«110285_j68805376082495_2_alg».proof.Proof.FrameRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that neither host stretch writes and that is no window's array of either region ends as launched. -/
theorem W4_untouched (c : Dev nD) (r : Ref sig .tc) (h0 : r ∉ hostOps0_W) (h1 : r ∉ hostOps1_W)
    (hw0 : ∀ w, Pipeline.arrRef spec0 w ≠ r) (hw1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r hw1
    _ = W2 m ρ c (Proc.devRef .tc r) := StableHlo.after_of_writes_sub hostOps1 _ hostOps1_writes h1
    _ = W1 m ρ c (Proc.devRef .tc r) := W2_of_ne m ρ c r hw0
    _ = W0 m ρ c (Proc.devRef .tc r) := StableHlo.after_of_writes_sub hostOps0 _ hostOps0_writes h0
    _ = m ((c : Thread nD τ).loc r) := rfl

theorem W4_arg0 (c : Dev nD) : W4 m ρ c (Proc.devRef .tc main_arg0) = m ((c : Thread nD τ).loc main_arg0) :=
  W4_untouched m ρ c main_arg0 (by decide) (by decide) (by decide) (by decide)
theorem W4_arg1 (c : Dev nD) : W4 m ρ c (Proc.devRef .tc main_arg1) = m ((c : Thread nD τ).loc main_arg1) :=
  W4_untouched m ρ c main_arg1 (by decide) (by decide) (by decide) (by decide)
theorem W4_arg2 (c : Dev nD) : W4 m ρ c (Proc.devRef .tc main_arg2) = m ((c : Thread nD τ).loc main_arg2) :=
  W4_untouched m ρ c main_arg2 (by decide) (by decide) (by decide) (by decide)
theorem W4_arg3 (c : Dev nD) : W4 m ρ c (Proc.devRef .tc main_arg3) = m ((c : Thread nD τ).loc main_arg3) :=
  W4_untouched m ρ c main_arg3 (by decide) (by decide) (by decide) (by decide)
theorem W4_arg4 (c : Dev nD) : W4 m ρ c (Proc.devRef .tc main_arg4) = m ((c : Thread nD τ).loc main_arg4) :=
  W4_untouched m ρ c main_arg4 (by decide) (by decide) (by decide) (by decide)
theorem W4_arg5 (c : Dev nD) : W4 m ρ c (Proc.devRef .tc main_arg5) = m ((c : Thread nD τ).loc main_arg5) :=
  W4_untouched m ρ c main_arg5 (by decide) (by decide) (by decide) (by decide)
theorem W4_arg6 (c : Dev nD) : W4 m ρ c (Proc.devRef .tc main_arg6) = m ((c : Thread nD τ).loc main_arg6) :=
  W4_untouched m ρ c main_arg6 (by decide) (by decide) (by decide) (by decide)
theorem W4_arg7 (c : Dev nD) : W4 m ρ c (Proc.devRef .tc main_arg7) = m ((c : Thread nD τ).loc main_arg7) :=
  W4_untouched m ρ c main_arg7 (by decide) (by decide) (by decide) (by decide)
theorem W4_arg8 (c : Dev nD) : W4 m ρ c (Proc.devRef .tc main_arg8) = m ((c : Thread nD τ).loc main_arg8) :=
  W4_untouched m ρ c main_arg8 (by decide) (by decide) (by decide) (by decide)

/-- THE FRAME: every weakly fair execution terminates, faults nowhere, and ends with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_arg0 m ρ c), (h c _ (mem_uc main_arg1 (by decide))).trans (W4_arg1 m ρ c),
     (h c _ (mem_uc main_arg2 (by decide))).trans (W4_arg2 m ρ c), (h c _ (mem_uc main_arg3 (by decide))).trans (W4_arg3 m ρ c),
     (h c _ (mem_uc main_arg4 (by decide))).trans (W4_arg4 m ρ c), (h c _ (mem_uc main_arg5 (by decide))).trans (W4_arg5 m ρ c),
     (h c _ (mem_uc main_arg6 (by decide))).trans (W4_arg6 m ρ c), (h c _ (mem_uc main_arg7 (by decide))).trans (W4_arg7 m ρ c),
     (h c _ (mem_uc main_arg8 (by decide))).trans (W4_arg8 m ρ c)⟩)
    (run_all m ρ)

end Cert.KernelIdeal.Run

end
-- ==== Proof.AttnSpec.lean ====
import Idealize.ShloMosaic.PureOps.Ideal
import Idealize.ShloMosaic.Lib.ValueIdx

/-!
# Single-head attention over projected inputs, as one function of the argument arrays

For inputs `query, key, value : [4, 2048, 1024]`, weights `W : [1024, 1024]` and biases `b : [1024]`, over the
extended reals:

* a projection is `proj x W b (n, r, d) = Σ_j x (n, r, j) · W (j, d) + b d`;
* a score row is `score c q k (n, i) j = (Σ_d q (n, i, d) · k (n, j, d)) · c` for a scale `c`;
* the row's weights are `wt e j = exp (e j − max_j e j)`, the maximum taken as the fold of `max` from `⊥`;
* the output is the weighted aggregate of the value rows normalised by the weights' sum ONCE, after the
  aggregation: `(Σ_j wt e j · v (n, j, d)) / Σ_j wt e j`.
-/

noncomputable section

namespace Cert.AttnSpec

open Idealize.ShloMosaic Idealize.ShloMosaic.ValueIdx

/-- The shapes of the argument arrays. -/
abbrev SX : Shape := ⟨3, ![4, 2048, 1024]⟩
abbrev SW : Shape := ⟨2, ![1024, 1024]⟩
abbrev SB : Shape := ⟨1, ![1024]⟩

/-- A linear projection of the rows of `x`: entry `(n, r, d)` is `Σ_j x (n, r, j) · w (j, d) + b d`. -/
def proj (x : SX.Idx → EReal) (w : SW.Idx → EReal) (b : SB.Idx → EReal) (n : Fin 4) (r : Fin 2048) (d : Fin 1024) : EReal :=
  (∑ j : Fin 1024, x (ix3 n r j) * w (ix2 j d)) + b (ix1 d)

/-- The scaled scores of query row `(n, i)` against every key row `j` of the same batch entry. -/
def score (c : EReal) (q k : Fin 4 → Fin 2048 → Fin 1024 → EReal) (n : Fin 4) (i j : Fin 2048) : EReal :=
  (∑ d : Fin 1024, q n i d * k n j d) * c

/-- A row's maximum: the fold of `max` from `⊥`. -/
def rowMax (e : Fin 2048 → EReal) : EReal := (Finset.univ : Finset (Fin 2048)).fold max (⊥ : EReal) e

/-- The unnormalised softmax weights of a row: `exp (e j − max e)`. -/
def wt (e : Fin 2048 → EReal) (j : Fin 2048) : EReal := Ideal.exp (e j - rowMax e)

/-- The weighted aggregate of `m` normalised once, AFTER the aggregation. -/
def aggAfter (e m : Fin 2048 → EReal) : EReal := Ideal.div (∑ j, wt e j * m j) (∑ j, wt e j)

/-- The scale the kernel multiplies the scores by: the f32 word of `2⁻⁵ = 1/32 = 1/√1024`. -/
def scaleK : EReal := Ideal.ofBits .f32 0x3D000000#32

/-- The whole computation as one function of the nine argument arrays, index by index. -/
def attn (query key value : SX.Idx → EReal) (Wq : SW.Idx → EReal) (bq : SB.Idx → EReal) (Wk : SW.Idx → EReal)
    (bk : SB.Idx → EReal) (Wv : SW.Idx → EReal) (bv : SB.Idx → EReal) : SX.Idx → EReal := fun i =>
  aggAfter (fun j => score scaleK (proj query Wq bq) (proj key Wk bk) (i 0) (i 1) j)
    (fun j => proj value Wv bv (i 0) j (i 2))

end Cert.AttnSpec

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.PayProj.lean ====
import proofs.«110285_j68805376082495_2_alg».proof.Proof.Gen.KernelIdeal.Skeleton
import proofs.«110285_j68805376082495_2_alg».proof.Proof.AttnSpec
import proofs.«110285_j68805376082495_2_alg».proof.Proof.LibMatProd
import Idealize.ShloMosaic.Lib.ValueLayout
import Idealize.ShloMosaic.Lib.Pipeline.Value
import Idealize.ShloMosaic.PureOps.Ideal.Laws

/-!
# The projection kernel's stored block, read at an index

Over the extended reals the projection kernel stores, at row `r` and column `d` of its block, the matrix product of
its input block and its weight block at `(r, d)` plus the bias at `d`:
`Σ_j x (0, r, j) · w (0, j, d) + b (0, 0, d)`. The changes of float format are the identity, the casts that drop or
add the leading unit axis keep the other coordinates, and the bias row is laid along every row.
-/

noncomputable section

namespace Cert.KernelIdeal.Pay

open Idealize.ShloMosaic Idealize.ShloMosaic.ValueIdx Cert.KernelIdeal

/-- The projection's matrix product into the zero splat, read at `(r, d)`: `Σ_k A (r, k) · B (k, d)`. -/
theorem matmul_proj_apply (A B : FVec Ideal S1024x1024 .bf16) (r d : Fin 1024) :
    matmul dot_S1024x1024_S1024x1024_S1024x1024_1_0_0_1_n_n none A B (constant S1024x1024 .f32 0x00000000#32) (ix2 r d)
      = ∑ k : Fin 1024, A (ix2 r k) * B (ix2 k d) := by
  refine (Ideal.matmul_constant_zero_apply dot_S1024x1024_S1024x1024_S1024x1024_1_0_0_1_n_n none A B (ix2 r d)).trans ?_
  exact Cert.Gcn.Dense.sum_contr_eq_prod dot_S1024x1024_S1024x1024_S1024x1024_1_0_0_1_n_n rfl rfl
    (fun _ _ => rfl)
    (fun i q => dot_S1024x1024_S1024x1024_S1024x1024_1_0_0_1_n_n.lhsIdx_val_of_single rfl i q)
    (fun i q => dot_S1024x1024_S1024x1024_S1024x1024_1_0_0_1_n_n.rhsIdx_val_of_single rfl i q)
    (fun _ _ => rfl) A B (ix2 r d)

/-- The projection kernel's stored value at `(0, r, d)`. -/
theorem proj_apply (x w : Vec Ideal S1x1024x1024 .f32) (b : Vec Ideal S1x1x1024 .f32) (r d : Fin 1024) :
    Gen.k0_pay1 (F := Ideal) x w b (ix3 (0 : Fin 1) r d)
      = (∑ j : Fin 1024, x (ix3 (0 : Fin 1) r j) * w (ix3 (0 : Fin 1) j d)) + b (ix3 (0 : Fin 1) (0 : Fin 1) d) := by
  unfold Gen.k0_pay1
  refine (shapeCast_ab_1ab_apply _ _ (0 : Fin 1) r d).trans ?_
  refine (truncf_apply (ψ := .bf16) _ Gen.bitsLt_bf16_f32 (ix2 r d)).trans ?_
  refine (addf_apply _ _ (ix2 r d)).trans ?_
  refine congrArg₂ (· + ·) ?_ ?_
  · refine (matmul_proj_apply _ _ r d).trans ?_
    refine Finset.sum_congr rfl fun j _ => congrArg₂ (· * ·) ?_ ?_
    · exact (truncf_apply (ψ := .bf16) _ Gen.bitsLt_bf16_f32 (ix2 r j)).trans (shapeCast_1ab_ab_apply x _ r j)
    · exact (truncf_apply (ψ := .bf16) _ Gen.bitsLt_bf16_f32 (ix2 j d)).trans (shapeCast_1ab_ab_apply w _ j d)
  · refine (broadcastTo_1b_ab_apply _ _ r d).trans ?_
    exact shapeCast_1ab_ab_apply b _ (0 : Fin 1) d

end Cert.KernelIdeal.Pay

end
-- ==== Proof.ValProj.lean ====
/-
  The projection region's result array, as one function of the three stacked arrays it reads.

  Point (p, i) of the 3 × 8 grid writes back rows [1024·i, 1024·(i+1)) of member p: entry (p, r, d) of the result is
  Σ_j X (p, r, j) · W (p, j, d) + B (p, 0, d). The 24 blocks tile the [3, 8192, 1024] result, so after the region the
  whole array is that function.
-/
import proofs.«110285_j68805376082495_2_alg».proof.Proof.FrameRun
import proofs.«110285_j68805376082495_2_alg».proof.Proof.PayProj
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal.Gen Cert.KernelIdeal.Run

variable (V : (c : Dev nD) → (b : Ref sig .tc) → Buf (Elt Ideal) ((c : Thread nD τ).loc b))

/-- The stacked projection, index by index. -/
def stackProj (X : Vec Ideal S3x8192x1024 .f32) (Wt : Vec Ideal S3x1024x1024 .f32) (B : Vec Ideal S3x1x1024 .f32) :
    Vec Ideal S3x8192x1024 .bf16 :=
  fun i => (∑ j : Fin 1024, X (ix3 (i 0 : Fin 3) (i 1 : Fin 8192) j) * Wt (ix3 (i 0 : Fin 3) j (i 2 : Fin 1024)))
    + B (ix3 (i 0 : Fin 3) (0 : Fin 1) (i 2 : Fin 1024))

theorem hz3 : (![0, 0, 0] : Fin 3 → Nat) = fun _ => 0 := funext fun a => by fin_cases a <;> rfl

/-- The printed index maps, decided over the grid: the input rows move with the output's block; the weights and the bias
    follow its member index only. -/
theorem projIdx : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 2 ∧ win0_3.index t (1 : Fin 3) ≤ 7 :=
  (by decide +kernel : ∀ t : Fin grid0.N, _)

/-- Every block of the result is some point's. -/
theorem projOnto : ∀ (q0 : Fin 3) (q1 : Fin 8), ∃ t : Fin cfg0.N, win0_3.index t = ![q0.val, q1.val, 0] :=
  (by decide +kernel : ∀ (q0 : Fin 3) (q1 : Fin 8), ∃ t : Fin grid0.N, win0_3.index t = ![q0.val, q1.val, 0])

/-- WHAT POINT `t` WRITES BACK is block `t` of the stacked projection of the arrays as the region finds them. -/
theorem projFlushed (c : Dev nD) (t : Fin cfg0.N) :
    (projDat V c).flushed 3 t
      = ((cfg0.win 3).blk t).view.read (Elt Ideal) (stackProj (V c main_v6) (V c main_v10) (V c main_v15)) := by
  show (cfg0.win 3).cut (grid0.coords t) ((projDat V c).after 3 t) = _
  rw [projAfter3]
  unfold projOut
  rw [View.canon_unit_zero hz3]
  simp only [View.ld_unit_zero (S := S1x1024x1024) hz3, View.ld_unit_zero (S := S1x1x1024) hz3]
  obtain ⟨e00, e01, e02, e10, e11, e12, e20, e21, e22, e32, -, -⟩ := projIdx t
  refine funext fun (y : S1x1024x1024.Idx) => ?_
  obtain ⟨u, r, d, rfl⟩ : ∃ (u : Fin 1) (r d : Fin 1024), y = ix3 u r d := ⟨y 0, y 1, y 2, eq_ix3 y⟩
  obtain rfl : u = 0 := Subsingleton.elim _ _
  show k0_pay1 (F := Ideal) (projBlk V c 0 t) (projBlk V c 1 t) (projBlk V c 2 t) (ix3 (0 : Fin 1) r d)
    = stackProj (V c main_v6) (V c main_v10) (V c main_v15) (((cfg0.win 3).blk t).view.emb (ix3 (0 : Fin 1) r d))
  refine (Cert.KernelIdeal.Pay.proj_apply _ _ _ r d).trans ?_
  unfold stackProj
  refine congrArg₂ (· + ·) (Finset.sum_congr rfl fun j _ => congrArg₂ (· * ·) ?_ ?_) ?_
  · show V c main_v6 (((cfg0.win 0).blk t).view.emb (ix3 (0 : Fin 1) r j)) = V c main_v6 _
    refine congrArg _ (funext fun a => Fin.ext ?_)
    match a with
    | ⟨0, _⟩ => show win0_0.index t (0 : Fin 3) * 1 + 1 * 0 = win0_3.index t (0 : Fin 3) * 1 + 1 * 0; omega
    | ⟨1, _⟩ => show win0_0.index t (1 : Fin 3) * 1024 + 1 * r.val = win0_3.index t (1 : Fin 3) * 1024 + 1 * r.val; omega
    | ⟨2, _⟩ => show win0_0.index t (2 : Fin 3) * 1024 + 1 * j.val = j.val; omega
  · show V c main_v10 (((cfg0.win 1).blk t).view.emb (ix3 (0 : Fin 1) j d)) = V c main_v10 _
    refine congrArg _ (funext fun a => Fin.ext ?_)
    match a with
    | ⟨0, _⟩ => show win0_1.index t (0 : Fin 3) * 1 + 1 * 0 = win0_3.index t (0 : Fin 3) * 1 + 1 * 0; omega
    | ⟨1, _⟩ => show win0_1.index t (1 : Fin 3) * 1024 + 1 * j.val = j.val; omega
    | ⟨2, _⟩ => show win0_1.index t (2 : Fin 3) * 1024 + 1 * d.val = win0_3.index t (2 : Fin 3) * 1024 + 1 * d.val; omega
  · show V c main_v15 (((cfg0.win 2).blk t).view.emb (ix3 (0 : Fin 1) (0 : Fin 1) d)) = V c main_v15 _
    refine congrArg _ (funext fun a => Fin.ext ?_)
    match a with
    | ⟨0, _⟩ => show win0_2.index t (0 : Fin 3) * 1 + 1 * 0 = win0_3.index t (0 : Fin 3) * 1 + 1 * 0; omega
    | ⟨1, _⟩ => show win0_2.index t (1 : Fin 3) * 1 + 1 * 0 = 0; omega
    | ⟨2, _⟩ => show win0_2.index t (2 : Fin 3) * 1024 + 1 * d.val = win0_3.index t (2 : Fin 3) * 1024 + 1 * d.val; omega

/-- An index of the result is in point `t`'s block iff each coordinate is in the block's range on its axis. -/
theorem projMemBlk (t : Fin cfg0.N) (i : S3x8192x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v16).slice (win0_3.rect t)).set ↔ _
  rw [View.set_slice_whole, Rect.mem_set_unit]
  exact Iff.rfl

/-- The blocks cover the result. -/
theorem projCovered (i : S3x8192x1024.Idx) :
    ∃ t : Fin cfg0.N, (cfg0.win 3).flush t = true ∧ i ∈ ((cfg0.win 3).blk t).view.set := by
  have hi0 : (i 0).val < 3 := (i 0).isLt
  have hi1 : (i 1).val < 8192 := (i 1).isLt
  have hi2 : (i 2).val < 1024 := (i 2).isLt
  obtain ⟨t, ht⟩ := projOnto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [projMemBlk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE ARRAY after the region: the stacked projection of the arrays the region found. -/
theorem projFinal (c : Dev nD) :
    (projDat V c).arrAt 3 cfg0.N = stackProj (V c main_v6) (V c main_v10) (V c main_v15) :=
  (projDat V c).arrAt_eq_of_cover 3 _ (fun t _ => projFlushed V c t) projCovered

end Cert.KernelIdeal.Val

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibRowReads.lean ====
import Idealize.ShloMosaic.Lib.Pipeline.Value
import Idealize.ShloMosaic.Lib.ValueIdx
import Idealize.ShloMosaic.Lib.Affine
import Idealize.ShloMosaic.PureOps.Ideal.Laws

/-!
# Rows of a matrix: sums and maxima along the last axis, and a comparison bit as a number

General facts, over the extended reals, about an `[a, b]` array reduced along its last axis, read at a row:

* a kernel's lane sum is the sum of the row; a kernel's lane maximum and the host's maximum-reduce are the fold of
  `max` over the row from the initial value;
* the bit of an integer equality test, widened and read as a signed or as an unsigned integer, is 1 or 0;
* two naturals below `2 ^ 32` have equal 32-bit words only if they are equal.
-/

noncomputable section

open Idealize.ShloMosaic Idealize.ShloMosaic.ValueIdx

namespace Cert.RowReads

/-- Putting column `k` back into the reduced index `r` gives `(r, k)`. -/
theorem lift_last {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum of an `[a, b]` matrix, read at row `r`, is the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- A lane maximum of an `[a, b]` matrix, read at row `r`, is the fold of `max` over that row from the
    accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => Finset.fold max (Ideal.ofBits .f32 acc) f (Finset.univ : Finset (Fin b)))
    (funext fun k => congrArg src (lift_last h r k))

/-- The host's maximum-reduce of an `[a, b]` matrix along its last axis, read at row `r`: the same fold, from the
    initial value's one element. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_last h r k))

/-! ## A comparison bit as a number -/

/-- The mask entry of two words: 1 when they are equal, else 0. -/
def mask01 (x y : BitVec 32) : EReal := if x = y then 1 else 0

/-- The comparison bit widened to a word and read as a signed integer is that mask entry. -/
theorem sext_cmpi_eq (x y : BitVec 32) :
    ((((IntOp.cmpi .eq x y).setWidth 32).toInt : ℝ) : EReal) = mask01 x y := by
  unfold mask01
  by_cases h : x = y
  · rw [IntOp.cmpi_eq.mpr h, if_pos h, show ((1#1 : BitVec 1).setWidth 32).toInt = 1 by decide]
    simp
  · rw [eq_zero_of_ne_one (fun hc => h (IntOp.cmpi_eq.mp hc)), if_neg h,
      show ((0#1 : BitVec 1).setWidth 32).toInt = 0 by decide]
    simp

/-- The comparison bit read as an unsigned integer is the same mask entry. -/
theorem uext_cmpi_eq (x y : BitVec 32) : ((((IntOp.cmpi .eq x y).toNat : ℝ)) : EReal) = mask01 x y := by
  unfold mask01
  by_cases h : x = y
  · rw [IntOp.cmpi_eq.mpr h, if_pos h, show (1#1 : BitVec 1).toNat = 1 by decide]
    simp
  · rw [eq_zero_of_ne_one (fun hc => h (IntOp.cmpi_eq.mp hc)), if_neg h, show (0#1 : BitVec 1).toNat = 0 by decide]
    simp

/-- Naturals below `2 ^ 32` with the same 32-bit word are equal. -/
theorem ofNat32_inj {p q : ℕ} (hp : p < 2 ^ 32) (hq : q < 2 ^ 32) : BitVec.ofNat 32 p = BitVec.ofNat 32 q ↔ p = q := by
  constructor
  · intro h
    have h2 := congrArg BitVec.toNat h
    simp only [BitVec.toNat_ofNat] at h2
    rwa [Nat.mod_eq_of_lt hp, Nat.mod_eq_of_lt hq] at h2
  · intro h; rw [h]

end Cert.RowReads

end
-- ==== Proof.PayAttn.lean ====
import proofs.«110285_j68805376082495_2_alg».proof.Proof.Gen.KernelIdeal.Skeleton
import proofs.«110285_j68805376082495_2_alg».proof.Proof.AttnSpec
import proofs.«110285_j68805376082495_2_alg».proof.Proof.LibMatProd
import proofs.«110285_j68805376082495_2_alg».proof.Proof.LibKeepdims
import proofs.«110285_j68805376082495_2_alg».proof.Proof.LibRowReads
import Idealize.ShloMosaic.Lib.ValueLayout
import Idealize.ShloMosaic.Lib.Pipeline.Value
import Idealize.ShloMosaic.PureOps.Ideal.Laws

/-!
# The attention kernel's stored block, read at an index

Over the extended reals the attention kernel stores, at row `r` and column `d` of its block, the softmax-weighted
aggregate of the value rows normalised once, after the aggregation. With the scaled scores of query row `r`,
`e j = (Σ_c q (0, r, c) · k (0, j, c)) · 2⁻⁵`, and the weights `p j = exp (e j − max_j e j)`, the stored value is
`(Σ_j p j · v (0, j, d)) / Σ_j p j`.

The steps: the scores are a matrix product against the transposed key block; the row maximum is a lane maximum
from `−∞`, kept as a column and laid back along the row; the weights' sum is a lane sum, kept as a column and laid
along the output row; the aggregate is a second matrix product. Changes of float format are the identity and the
casts that drop or add the leading unit axis keep the other coordinates.
-/

noncomputable section

namespace Cert.KernelIdeal.Pay

open Idealize.ShloMosaic Idealize.ShloMosaic.ValueIdx Cert.KernelIdeal

/-- The scores' matrix product into the zero splat, read at `(r, j)`: `Σ_c A (r, c) · B (c, j)`. -/
theorem matmul_scores_apply (A : FVec Ideal S256x1024 .bf16) (B : FVec Ideal S1024x2048 .bf16) (r : Fin 256) (j : Fin 2048) :
    matmul dot_S256x1024_S1024x2048_S256x2048_1_0_0_1_n_n none A B (constant S256x2048 .f32 0x00000000#32) (ix2 r j)
      = ∑ c : Fin 1024, A (ix2 r c) * B (ix2 c j) := by
  refine (Ideal.matmul_constant_zero_apply dot_S256x1024_S1024x2048_S256x2048_1_0_0_1_n_n none A B (ix2 r j)).trans ?_
  exact Cert.Gcn.Dense.sum_contr_eq_prod dot_S256x1024_S1024x2048_S256x2048_1_0_0_1_n_n rfl rfl
    (fun _ _ => rfl)
    (fun i q => dot_S256x1024_S1024x2048_S256x2048_1_0_0_1_n_n.lhsIdx_val_of_single rfl i q)
    (fun i q => dot_S256x1024_S1024x2048_S256x2048_1_0_0_1_n_n.rhsIdx_val_of_single rfl i q)
    (fun _ _ => rfl) A B (ix2 r j)

/-- The aggregate's matrix product into the zero splat, read at `(r, d)`: `Σ_j A (r, j) · B (j, d)`. -/
theorem matmul_agg_apply (A : FVec Ideal S256x2048 .bf16) (B : FVec Ideal S2048x1024 .bf16) (r : Fin 256) (d : Fin 1024) :
    matmul dot_S256x2048_S2048x1024_S256x1024_1_0_0_1_n_n none A B (constant S256x1024 .f32 0x00000000#32) (ix2 r d)
      = ∑ j : Fin 2048, A (ix2 r j) * B (ix2 j d) := by
  refine (Ideal.matmul_constant_zero_apply dot_S256x2048_S2048x1024_S256x1024_1_0_0_1_n_n none A B (ix2 r d)).trans ?_
  exact Cert.Gcn.Dense.sum_contr_eq_prod dot_S256x2048_S2048x1024_S256x1024_1_0_0_1_n_n rfl rfl
    (fun _ _ => rfl)
    (fun i q => dot_S256x2048_S2048x1024_S256x1024_1_0_0_1_n_n.lhsIdx_val_of_single rfl i q)
    (fun i q => dot_S256x2048_S2048x1024_S256x1024_1_0_0_1_n_n.rhsIdx_val_of_single rfl i q)
    (fun _ _ => rfl) A B (ix2 r d)

/-- The scaled scores of the query block against the key block: `(q · kᵀ) · 2⁻⁵`, as the kernel computes them. -/
def scores (q : Vec Ideal S1x256x1024 .bf16) (k : Vec Ideal S1x2048x1024 .bf16) : FVec Ideal S256x2048 .f32 :=
  mulf
    (matmul (φ₁ := .bf16) (φ₂ := .bf16) dot_S256x1024_S1024x2048_S256x2048_1_0_0_1_n_n none
      (shapeCast S256x1024 q Gen.shapeCasts_S1x256x1024_S256x1024)
      (transpose S1024x2048 [1, 0] (shapeCast S2048x1024 k Gen.shapeCasts_S1x2048x1024_S2048x1024)
        Gen.transposes_S2048x1024_p1_0_S1024x2048)
      (constant S256x2048 .f32 0x00000000#32))
    (broadcast S256x2048 (Scalar.ofBits .f32 0x3D000000#32))

/-- The scores at `(r, j)`: the inner product of query row `r` and key row `j`, times the scale. -/
theorem scores_apply (q : Vec Ideal S1x256x1024 .bf16) (k : Vec Ideal S1x2048x1024 .bf16) (r : Fin 256) (j : Fin 2048) :
    scores q k (ix2 r j)
      = (∑ c : Fin 1024, q (ix3 (0 : Fin 1) r c) * k (ix3 (0 : Fin 1) j c)) * Cert.AttnSpec.scaleK := by
  unfold scores
  refine (mulf_apply _ _ (ix2 r j)).trans ?_
  refine congrArg₂ (· * ·) ?_ rfl
  refine (matmul_scores_apply _ _ r j).trans ?_
  refine Finset.sum_congr rfl fun c _ => congrArg₂ (· * ·) ?_ ?_
  · exact shapeCast_1ab_ab_apply q _ r c
  · exact (transpose_ix2_apply _ _ c j).trans (shapeCast_1ab_ab_apply k _ j c)

/-- The unnormalised softmax weights of a score matrix, as the kernel computes them: the exponential of each score
    less its row's maximum. -/
def weights (s : FVec Ideal S256x2048 .f32) : FVec Ideal S256x2048 .f32 :=
  exp (subf s
    (broadcastTo S256x2048
      (shapeCast S256x1 (multiReduction .maximumf [1] S256 s 0xFF800000#32 Gen.reduces_S256x2048_S256 (.inl rfl) rfl)
        Gen.shapeCasts_S256_S256x1)
      Gen.broadcasts_S256x1_S256x2048))

/-- The f32 word of `−∞` is `⊥`. -/
theorem ofBits_neg_inf : Ideal.ofBits .f32 0xFF800000#32 = (⊥ : EReal) := by
  simp [Ideal.ofBits, Ideal.ieee]

/-- The weights at `(r, j)`: `exp (s (r, j) − max_j' s (r, j'))`, the maximum as the fold of `max` from `⊥`. -/
theorem weights_apply (s : FVec Ideal S256x2048 .f32) (r : Fin 256) (j : Fin 2048) :
    weights s (ix2 r j)
      = Cert.AttnSpec.wt (fun j' : Fin 2048 => s (ix2 r j')) j := by
  unfold weights Cert.AttnSpec.wt Cert.AttnSpec.rowMax
  show Ideal.exp (s (ix2 r j) - _) = _
  refine congrArg (fun m => Ideal.exp (s (ix2 r j) - m)) ?_
  refine (Cert.Keepdims.broadcastTo_a1_ab_apply _ _ r j).trans ?_
  refine (Cert.Keepdims.shapeCast_a_a1_apply _ _ r (0 : Fin 1)).trans ?_
  refine (Cert.RowReads.rowMax_apply s 0xFF800000#32 Gen.reduces_S256x2048_S256 (.inl rfl) rfl r).trans ?_
  rw [ofBits_neg_inf]

/-- The attention kernel's stored value at `(0, r, d)`: the weighted aggregate of the value rows' column `d`,
    normalised once after the aggregation. -/
theorem attn_apply (q : Vec Ideal S1x256x1024 .bf16) (k v : Vec Ideal S1x2048x1024 .bf16) (r : Fin 256) (d : Fin 1024) :
    Gen.k1_pay1 (F := Ideal) q k v (ix3 (0 : Fin 1) r d)
      = Cert.AttnSpec.aggAfter
          (fun j : Fin 2048 => (∑ c : Fin 1024, q (ix3 (0 : Fin 1) r c) * k (ix3 (0 : Fin 1) j c)) * Cert.AttnSpec.scaleK)
          (fun j : Fin 2048 => v (ix3 (0 : Fin 1) j d)) := by
  have hpay : Gen.k1_pay1 (F := Ideal) q k v
      = shapeCast S1x256x1024
          (divf
            (matmul (φ₁ := .bf16) (φ₂ := .bf16) dot_S256x2048_S2048x1024_S256x1024_1_0_0_1_n_n none
              (truncf .bf16 (weights (scores q k)) Gen.bitsLt_bf16_f32)
              (shapeCast S2048x1024 v Gen.shapeCasts_S1x2048x1024_S2048x1024)
              (constant S256x1024 .f32 0x00000000#32))
            (broadcastTo S256x1024
              (shapeCast S256x1
                (multiReduction .add [1] S256 (weights (scores q k)) 0x00000000#32 Gen.reduces_S256x2048_S256 (.inl rfl) rfl)
                Gen.shapeCasts_S256_S256x1)
              Gen.broadcasts_S256x1_S256x1024))
          Gen.shapeCasts_S256x1024_S1x256x1024 := rfl
  have he : (fun j' : Fin 2048 => scores q k (ix2 r j'))
      = fun j : Fin 2048 => (∑ c : Fin 1024, q (ix3 (0 : Fin 1) r c) * k (ix3 (0 : Fin 1) j c)) * Cert.AttnSpec.scaleK :=
    funext fun j => scores_apply q k r j
  rw [hpay]
  refine (shapeCast_ab_1ab_apply _ _ (0 : Fin 1) r d).trans ?_
  refine (divf_apply _ _ (ix2 r d)).trans ?_
  unfold Cert.AttnSpec.aggAfter
  refine congrArg₂ Ideal.div ?_ ?_
  · refine (matmul_agg_apply _ _ r d).trans ?_
    refine Finset.sum_congr rfl fun j _ => congrArg₂ (· * ·) ?_ ?_
    · refine (truncf_apply (ψ := .bf16) _ Gen.bitsLt_bf16_f32 (ix2 r j)).trans ?_
      rw [weights_apply, he]
    · exact shapeCast_1ab_ab_apply v _ j d
  · refine (Cert.Keepdims.broadcastTo_a1_ab_apply _ _ r d).trans ?_
    refine (Cert.Keepdims.shapeCast_a_a1_apply _ _ r (0 : Fin 1)).trans ?_
    refine (Cert.RowReads.rowSum_apply _ 0x00000000#32 Gen.reduces_S256x2048_S256 (.inl rfl) rfl r).trans ?_
    refine Finset.sum_congr rfl fun j _ => ?_
    rw [weights_apply, he]

end Cert.KernelIdeal.Pay

end
-- ==== Proof.ValAttn.lean ====
/-
  The attention region's result array, as one function of the three arrays it reads.

  Point (n, i) of the 4 × 8 grid writes back rows [256·i, 256·(i+1)) of batch entry n: entry (n, r, d) of the result is
  the softmax-weighted aggregate over the 2048 key rows j of batch entry n of v (n, j, d), the weights those of the
  scaled scores Σ_c q (n, r, c) · k (n, j, c) / 32, normalised once after the aggregation. The 32 blocks tile the
  [4, 2048, 1024] result, so after the region the whole array is that function.
-/
import proofs.«110285_j68805376082495_2_alg».proof.Proof.FrameRun
import proofs.«110285_j68805376082495_2_alg».proof.Proof.PayAttn
import proofs.«110285_j68805376082495_2_alg».proof.Proof.AttnSpec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal.Gen Cert.KernelIdeal.Run

variable (V : (c : Dev nD) → (b : Ref sig .tc) → Buf (Elt Ideal) ((c : Thread nD τ).loc b))

/-- Attention over whole arrays, index by index. -/
def headAttn (q k v : Vec Ideal S4x2048x1024 .bf16) : Vec Ideal S4x2048x1024 .f32 :=
  fun i => Cert.AttnSpec.aggAfter
    (fun j : Fin 2048 => (∑ c : Fin 1024, q (ix3 (i 0 : Fin 4) (i 1 : Fin 2048) c) * k (ix3 (i 0 : Fin 4) j c)) * Cert.AttnSpec.scaleK)
    (fun j : Fin 2048 => v (ix3 (i 0 : Fin 4) j (i 2 : Fin 1024)))

theorem hz3' : (![0, 0, 0] : Fin 3 → Nat) = fun _ => 0 := funext fun a => by fin_cases a <;> rfl

/-- The printed index maps, decided over the grid: the query rows move with the output's block; the keys and the values
    follow its batch index only. -/
theorem attnIdx : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (2 : Fin 3) = 0 ∧ win1_3.index t (0 : Fin 3) ≤ 3 ∧ win1_3.index t (1 : Fin 3) ≤ 7 :=
  (by decide +kernel : ∀ t : Fin grid1.N, _)

/-- Every block of the result is some point's. -/
theorem attnOnto : ∀ (q0 : Fin 4) (q1 : Fin 8), ∃ t : Fin cfg1.N, win1_3.index t = ![q0.val, q1.val, 0] :=
  (by decide +kernel : ∀ (q0 : Fin 4) (q1 : Fin 8), ∃ t : Fin grid1.N, win1_3.index t = ![q0.val, q1.val, 0])

/-- WHAT POINT `t` WRITES BACK is block `t` of the attention of the arrays as the region finds them. -/
theorem attnFlushed (c : Dev nD) (t : Fin cfg1.N) :
    (attnDat V c).flushed 3 t
      = ((cfg1.win 3).blk t).view.read (Elt Ideal) (headAttn (V c main_v19) (V c main_v22) (V c main_v25)) := by
  show (cfg1.win 3).cut (grid1.coords t) ((attnDat V c).after 3 t) = _
  rw [attnAfter3]
  unfold attnOut
  rw [View.canon_unit_zero hz3']
  simp only [View.ld_unit_zero (S := S1x256x1024) hz3', View.ld_unit_zero (S := S1x2048x1024) hz3']
  obtain ⟨e00, e01, e02, e10, e11, e12, e20, e21, e22, e32, -, -⟩ := attnIdx t
  refine funext fun (y : S1x256x1024.Idx) => ?_
  obtain ⟨u, r, d, rfl⟩ : ∃ (u : Fin 1) (r : Fin 256) (d : Fin 1024), y = ix3 u r d := ⟨y 0, y 1, y 2, eq_ix3 y⟩
  obtain rfl : u = 0 := Subsingleton.elim _ _
  show k1_pay1 (F := Ideal) (attnBlk V c 0 t) (attnBlk V c 1 t) (attnBlk V c 2 t) (ix3 (0 : Fin 1) r d)
    = headAttn (V c main_v19) (V c main_v22) (V c main_v25) (((cfg1.win 3).blk t).view.emb (ix3 (0 : Fin 1) r d))
  refine (Cert.KernelIdeal.Pay.attn_apply _ _ _ r d).trans ?_
  unfold headAttn
  refine congrArg₂ Cert.AttnSpec.aggAfter
    (funext fun j => congrArg (· * Cert.AttnSpec.scaleK) (Finset.sum_congr rfl fun c' _ => congrArg₂ (· * ·) ?_ ?_))
    (funext fun j => ?_)
  · show V c main_v19 (((cfg1.win 0).blk t).view.emb (ix3 (0 : Fin 1) r c')) = V c main_v19 _
    refine congrArg _ (funext fun a => Fin.ext ?_)
    match a with
    | ⟨0, _⟩ => show win1_0.index t (0 : Fin 3) * 1 + 1 * 0 = win1_3.index t (0 : Fin 3) * 1 + 1 * 0; omega
    | ⟨1, _⟩ => show win1_0.index t (1 : Fin 3) * 256 + 1 * r.val = win1_3.index t (1 : Fin 3) * 256 + 1 * r.val; omega
    | ⟨2, _⟩ => show win1_0.index t (2 : Fin 3) * 1024 + 1 * c'.val = c'.val; omega
  · show V c main_v22 (((cfg1.win 1).blk t).view.emb (ix3 (0 : Fin 1) j c')) = V c main_v22 _
    refine congrArg _ (funext fun a => Fin.ext ?_)
    match a with
    | ⟨0, _⟩ => show win1_1.index t (0 : Fin 3) * 1 + 1 * 0 = win1_3.index t (0 : Fin 3) * 1 + 1 * 0; omega
    | ⟨1, _⟩ => show win1_1.index t (1 : Fin 3) * 2048 + 1 * j.val = j.val; omega
    | ⟨2, _⟩ => show win1_1.index t (2 : Fin 3) * 1024 + 1 * c'.val = c'.val; omega
  · show V c main_v25 (((cfg1.win 2).blk t).view.emb (ix3 (0 : Fin 1) j d)) = V c main_v25 _
    refine congrArg _ (funext fun a => Fin.ext ?_)
    match a with
    | ⟨0, _⟩ => show win1_2.index t (0 : Fin 3) * 1 + 1 * 0 = win1_3.index t (0 : Fin 3) * 1 + 1 * 0; omega
    | ⟨1, _⟩ => show win1_2.index t (1 : Fin 3) * 2048 + 1 * j.val = j.val; omega
    | ⟨2, _⟩ => show win1_2.index t (2 : Fin 3) * 1024 + 1 * d.val = win1_3.index t (2 : Fin 3) * 1024 + 1 * d.val; omega

/-- An index of the result is in point `t`'s block iff each coordinate is in the block's range on its axis. -/
theorem attnMemBlk (t : Fin cfg1.N) (i : S4x2048x1024.Idx) :
    i ∈ ((cfg1.win 3).blk t).view.set ↔ ∀ a : Fin 3, win1_3.index t a * S1x256x1024.size a ≤ (i a).val ∧ (i a).val < win1_3.index t a * S1x256x1024.size a + S1x256x1024.size a := by
  show i ∈ ((View.whole main_v26).slice (win1_3.rect t)).set ↔ _
  rw [View.set_slice_whole, Rect.mem_set_unit]
  exact Iff.rfl

/-- The blocks cover the result. -/
theorem attnCovered (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := attnOnto ⟨(i 0).val, hi0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [attnMemBlk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

/-- THE ARRAY after the region: the attention of the arrays the region found. -/
theorem attnFinal (c : Dev nD) :
    (attnDat V c).arrAt 3 cfg1.N = headAttn (V c main_v19) (V c main_v22) (V c main_v25) :=
  (attnDat V c).arrAt_eq_of_cover 3 _ (fun t _ => attnFlushed V c t) attnCovered

end Cert.KernelIdeal.Val

end
-- ==== Proof.LibStack3.lean ====
import Idealize.ShloMosaic.Lib.StableHlo.Run
import Idealize.ShloMosaic.Lib.Pipeline.Value
import Idealize.ShloMosaic.Lib.ValueIdx
import Idealize.ShloMosaic.Lib.ValueLayout

/-!
# Three arrays stacked along a new leading axis, and a member sliced back out, read at an index

General facts about the host operations `jnp.stack` of three arrays and the slicing of one member lower to, over any
element type and any extents:

* an `[m, a, b]` array reshaped to `[m·a, b]` reads, at `(r, j)` with `r = n · a + i`, the operand at `(n, i, j)`, and
  the reshape back reads the other way; a `[p, b]` array reshaped to `[p, 1, b]` reads the operand at `(p, d)`;
* an `[a, b]` array (a `[b]` vector) given a leading unit axis reads the operand at the remaining coordinates;
* member `p` of a `[P, a, b]` array sliced out as `[1, a, b]` reads, at `(0, r, d)`, the array at `(p, r, d)`;
* the concatenation of three `[1, a, b]` (or `[1, b]`) pieces along axis 0 reads, at leading coordinate `0`, `1`, `2`,
  the first, second, third piece;
* a host operation of THREE operands has, as its result, its function of the three operands' contents each read at its
  own reference (`nary3_result`), so that a stretch of host operations containing such a concatenation still rewrites,
  operation by operation, to one composed term over the contents the stretch is entered from (`host_results`).
-/

noncomputable section

namespace Cert.Stack3

open Idealize.ShloMosaic Idealize.ShloMosaic.ValueIdx

/-! ## Layout operations at explicit coordinates -/

section Layout
variable {α : Type}

/-- An `[m, a, b]` array reshaped to `[M, b]` reads, at `(r, j)` with `r = n · a + i`, the operand at `(n, i, j)`:
    the two indices have the same row-major position. -/
theorem shapeCast_mab_Mb_apply {m a b M : ℕ} (x : (⟨3, ![m, a, b]⟩ : Shape).Idx → α)
    (h : (⟨3, ![m, a, b]⟩ : Shape).ShapeCasts ⟨2, ![M, b]⟩) (n : Fin m) (i : Fin a) (j : Fin b) (r : Fin M)
    (hr : r.val = n.val * a + i.val) : shapeCast ⟨2, ![M, b]⟩ x h (ix2 r j) = x (ix3 n i j) :=
  shapeCast_apply x h _ _ (by
    rw [Shape.rowMajor_val_three, Shape.rowMajor_val_two]
    show (n.val * a + i.val) * b + j.val = r.val * b + j.val
    rw [hr])

/-- An `[M, b]` array reshaped to `[m, a, b]` reads, at `(n, i, j)`, the operand at `(r, j)` with `r = n · a + i`. -/
theorem shapeCast_Mb_mab_apply {m a b M : ℕ} (x : (⟨2, ![M, b]⟩ : Shape).Idx → α)
    (h : (⟨2, ![M, b]⟩ : Shape).ShapeCasts ⟨3, ![m, a, b]⟩) (n : Fin m) (i : Fin a) (j : Fin b) (r : Fin M)
    (hr : r.val = n.val * a + i.val) : shapeCast ⟨3, ![m, a, b]⟩ x h (ix3 n i j) = x (ix2 r j) :=
  shapeCast_apply x h _ _ (by
    rw [Shape.rowMajor_val_three, Shape.rowMajor_val_two]
    show r.val * b + j.val = (n.val * a + i.val) * b + j.val
    rw [hr])

/-- A `[p, b]` array reshaped to `[p, 1, b]` reads, at `(q, u, d)`, the operand at `(q, d)`. -/
theorem shapeCast_pb_p1b_apply {p b : ℕ} (x : (⟨2, ![p, b]⟩ : Shape).Idx → α)
    (h : (⟨2, ![p, b]⟩ : Shape).ShapeCasts ⟨3, ![p, 1, b]⟩) (q : Fin p) (u : Fin 1) (d : Fin b) :
    shapeCast ⟨3, ![p, 1, b]⟩ x h (ix3 q u d) = x (ix2 q d) :=
  shapeCast_apply x h _ _ (by
    have hu : u.val = 0 := by omega
    rw [Shape.rowMajor_val_three, Shape.rowMajor_val_two]
    show q.val * b + d.val = (q.val * 1 + u.val) * b + d.val
    rw [hu, Nat.mul_one, Nat.add_zero])

/-- An `[a, b]` array broadcast to `[1, a, b]` along its two axes reads, at `(u, i, j)`, the operand at `(i, j)`. -/
theorem broadcastInDim_ab_1ab_apply {a b : ℕ} (x : (⟨2, ![a, b]⟩ : Shape).Idx → α)
    (h : (⟨2, ![a, b]⟩ : Shape).BroadcastsInDim ⟨3, ![1, a, b]⟩ ![1, 2]) (u : Fin 1) (i : Fin a) (j : Fin b) :
    broadcastInDim ⟨3, ![1, a, b]⟩ ![1, 2] h x (ix3 u i j) = x (ix2 i j) := by
  refine broadcastInDim_apply ![1, 2] h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- A `[b]` vector broadcast to `[1, b]` along its axis reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- Member `p` of a `[P, a, b]` array sliced out as `[1, a, b]` reads, at `(u, i, j)`, the operand at `(p, i, j)`. -/
theorem slice_member_apply {P a b : ℕ} (p : Fin P) (x : (⟨3, ![P, a, b]⟩ : Shape).Idx → α)
    (h : (⟨3, ![P, a, b]⟩ : Shape).Slices ![p.val, 0, 0] ⟨3, ![1, a, b]⟩) (u : Fin 1) (i : Fin a) (j : Fin b) :
    extractStridedSlice ⟨3, ![1, a, b]⟩ ![p.val, 0, 0] x h (ix3 u i j) = x (ix3 p i j) := by
  refine extractStridedSlice_apply ![p.val, 0, 0] x h (ix3 u i j) (ix3 p i j) fun ax => ?_
  match ax with
  | ⟨0, _⟩ => show p.val = p.val + u.val; omega
  | ⟨1, _⟩ => show i.val = 0 + i.val; omega
  | ⟨2, _⟩ => show j.val = 0 + j.val; omega

/-- Three `[1, a, b]` pieces concatenated along the leading axis into `[3, a, b]`: member 0 is the first piece. -/
theorem concat3_1ab_apply_0 {a b : ℕ} (x0 x1 x2 : (⟨3, ![1, a, b]⟩ : Shape).Idx → α)
    (h : Shape.Concatenates (([⟨⟨3, ![1, a, b]⟩, x0⟩, ⟨⟨3, ![1, a, b]⟩, x1⟩, ⟨⟨3, ![1, a, b]⟩, x2⟩] :
      List ((s : Shape) × (s.Idx → α))).map (·.1)) ⟨3, ![3, a, b]⟩ 0) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (0 : Fin 3) i j)
      = x0 (ix3 (0 : Fin 1) i j) := by
  refine concatenate_apply_piece (t := ⟨3, ![3, a, b]⟩) (0 : Fin 3) [⟨⟨3, ![1, a, b]⟩, x0⟩, ⟨⟨3, ![1, a, b]⟩, x1⟩, ⟨⟨3, ![1, a, b]⟩, x2⟩] h (ix3 (0 : Fin 3) i j)
    0 (by show 0 < 3; decide) ⟨3, ![1, a, b]⟩ x0 rfl rfl 0 rfl (ix3 (0 : Fin 1) i j) (fun c hc => ?_) rfl
  match c, hc with
  | ⟨0, _⟩, hc => exact absurd rfl hc
  | ⟨1, _⟩, _ => rfl
  | ⟨2, _⟩, _ => rfl

/-- Three `[1, a, b]` pieces concatenated along the leading axis into `[3, a, b]`: member 1 is the second piece. -/
theorem concat3_1ab_apply_1 {a b : ℕ} (x0 x1 x2 : (⟨3, ![1, a, b]⟩ : Shape).Idx → α)
    (h : Shape.Concatenates (([⟨⟨3, ![1, a, b]⟩, x0⟩, ⟨⟨3, ![1, a, b]⟩, x1⟩, ⟨⟨3, ![1, a, b]⟩, x2⟩] :
      List ((s : Shape) × (s.Idx → α))).map (·.1)) ⟨3, ![3, a, b]⟩ 0) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (1 : Fin 3) i j)
      = x1 (ix3 (0 : Fin 1) i j) := by
  refine concatenate_apply_piece (t := ⟨3, ![3, a, b]⟩) (0 : Fin 3) [⟨⟨3, ![1, a, b]⟩, x0⟩, ⟨⟨3, ![1, a, b]⟩, x1⟩, ⟨⟨3, ![1, a, b]⟩, x2⟩] h (ix3 (1 : Fin 3) i j)
    1 (by show 1 < 3; decide) ⟨3, ![1, a, b]⟩ x1 rfl rfl 1 rfl (ix3 (0 : Fin 1) i j) (fun c hc => ?_) rfl
  match c, hc with
  | ⟨0, _⟩, hc => exact absurd rfl hc
  | ⟨1, _⟩, _ => rfl
  | ⟨2, _⟩, _ => rfl

/-- Three `[1, a, b]` pieces concatenated along the leading axis into `[3, a, b]`: member 2 is the third piece. -/
theorem concat3_1ab_apply_2 {a b : ℕ} (x0 x1 x2 : (⟨3, ![1, a, b]⟩ : Shape).Idx → α)
    (h : Shape.Concatenates (([⟨⟨3, ![1, a, b]⟩, x0⟩, ⟨⟨3, ![1, a, b]⟩, x1⟩, ⟨⟨3, ![1, a, b]⟩, x2⟩] :
      List ((s : Shape) × (s.Idx → α))).map (·.1)) ⟨3, ![3, a, b]⟩ 0) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (2 : Fin 3) i j)
      = x2 (ix3 (0 : Fin 1) i j) := by
  refine concatenate_apply_piece (t := ⟨3, ![3, a, b]⟩) (0 : Fin 3) [⟨⟨3, ![1, a, b]⟩, x0⟩, ⟨⟨3, ![1, a, b]⟩, x1⟩, ⟨⟨3, ![1, a, b]⟩, x2⟩] h (ix3 (2 : Fin 3) i j)
    2 (by show 2 < 3; decide) ⟨3, ![1, a, b]⟩ x2 rfl rfl 2 rfl (ix3 (0 : Fin 1) i j) (fun c hc => ?_) rfl
  match c, hc with
  | ⟨0, _⟩, hc => exact absurd rfl hc
  | ⟨1, _⟩, _ => rfl
  | ⟨2, _⟩, _ => rfl

/-- Three `[1, b]` rows concatenated along the leading axis into `[3, b]`: row 0 is the first piece. -/
theorem concat3_1b_apply_0 {b : ℕ} (x0 x1 x2 : (⟨2, ![1, b]⟩ : Shape).Idx → α)
    (h : Shape.Concatenates (([⟨⟨2, ![1, b]⟩, x0⟩, ⟨⟨2, ![1, b]⟩, x1⟩, ⟨⟨2, ![1, b]⟩, x2⟩] :
      List ((s : Shape) × (s.Idx → α))).map (·.1)) ⟨2, ![3, b]⟩ 0) (j : Fin b) :
    concatenate ⟨2, ![3, b]⟩ 0 [⟨⟨2, ![1, b]⟩, x0⟩, ⟨⟨2, ![1, b]⟩, x1⟩, ⟨⟨2, ![1, b]⟩, x2⟩] h (ix2 (0 : Fin 3) j)
      = x0 (ix2 (0 : Fin 1) j) := by
  refine concatenate_apply_piece (t := ⟨2, ![3, b]⟩) (0 : Fin 2) [⟨⟨2, ![1, b]⟩, x0⟩, ⟨⟨2, ![1, b]⟩, x1⟩, ⟨⟨2, ![1, b]⟩, x2⟩] h (ix2 (0 : Fin 3) j)
    0 (by show 0 < 3; decide) ⟨2, ![1, b]⟩ x0 rfl rfl 0 rfl (ix2 (0 : Fin 1) j) (fun c hc => ?_) rfl
  match c, hc with
  | ⟨0, _⟩, hc => exact absurd rfl hc
  | ⟨1, _⟩, _ => rfl

/-- Three `[1, b]` rows concatenated along the leading axis into `[3, b]`: row 1 is the second piece. -/
theorem concat3_1b_apply_1 {b : ℕ} (x0 x1 x2 : (⟨2, ![1, b]⟩ : Shape).Idx → α)
    (h : Shape.Concatenates (([⟨⟨2, ![1, b]⟩, x0⟩, ⟨⟨2, ![1, b]⟩, x1⟩, ⟨⟨2, ![1, b]⟩, x2⟩] :
      List ((s : Shape) × (s.Idx → α))).map (·.1)) ⟨2, ![3, b]⟩ 0) (j : Fin b) :
    concatenate ⟨2, ![3, b]⟩ 0 [⟨⟨2, ![1, b]⟩, x0⟩, ⟨⟨2, ![1, b]⟩, x1⟩, ⟨⟨2, ![1, b]⟩, x2⟩] h (ix2 (1 : Fin 3) j)
      = x1 (ix2 (0 : Fin 1) j) := by
  refine concatenate_apply_piece (t := ⟨2, ![3, b]⟩) (0 : Fin 2) [⟨⟨2, ![1, b]⟩, x0⟩, ⟨⟨2, ![1, b]⟩, x1⟩, ⟨⟨2, ![1, b]⟩, x2⟩] h (ix2 (1 : Fin 3) j)
    1 (by show 1 < 3; decide) ⟨2, ![1, b]⟩ x1 rfl rfl 1 rfl (ix2 (0 : Fin 1) j) (fun c hc => ?_) rfl
  match c, hc with
  | ⟨0, _⟩, hc => exact absurd rfl hc
  | ⟨1, _⟩, _ => rfl

/-- Three `[1, b]` rows concatenated along the leading axis into `[3, b]`: row 2 is the third piece. -/
theorem concat3_1b_apply_2 {b : ℕ} (x0 x1 x2 : (⟨2, ![1, b]⟩ : Shape).Idx → α)
    (h : Shape.Concatenates (([⟨⟨2, ![1, b]⟩, x0⟩, ⟨⟨2, ![1, b]⟩, x1⟩, ⟨⟨2, ![1, b]⟩, x2⟩] :
      List ((s : Shape) × (s.Idx → α))).map (·.1)) ⟨2, ![3, b]⟩ 0) (j : Fin b) :
    concatenate ⟨2, ![3, b]⟩ 0 [⟨⟨2, ![1, b]⟩, x0⟩, ⟨⟨2, ![1, b]⟩, x1⟩, ⟨⟨2, ![1, b]⟩, x2⟩] h (ix2 (2 : Fin 3) j)
      = x2 (ix2 (0 : Fin 1) j) := by
  refine concatenate_apply_piece (t := ⟨2, ![3, b]⟩) (0 : Fin 2) [⟨⟨2, ![1, b]⟩, x0⟩, ⟨⟨2, ![1, b]⟩, x1⟩, ⟨⟨2, ![1, b]⟩, x2⟩] h (ix2 (2 : Fin 3) j)
    2 (by show 2 < 3; decide) ⟨2, ![1, b]⟩ x2 rfl rfl 2 rfl (ix2 (0 : Fin 1) j) (fun c hc => ?_) rfl
  match c, hc with
  | ⟨0, _⟩, hc => exact absurd rfl hc
  | ⟨1, _⟩, _ => rfl

end Layout

/-! ## A three-operand host operation's result -/

/-- A three-operand operation's result with each operand's contents at its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-- Rewrites a stretch's result at one reference to the operations' composed term over the entry contents. -/
macro "host_results" : tactic =>
  `(tactic| (simp only [StableHlo.after_cons, StableHlo.after_nil]
             repeat (first
               | rw [nary3_result] | rw [StableHlo.unary_result] | rw [StableHlo.reshape_result]
               | (rw [StableHlo.unary_result_ne]; rotate_left; decide)
               | (rw [StableHlo.reshape_result_ne]; rotate_left; decide)
               | (rw [StableHlo.nary_result_ne]; rotate_left; decide))))

end Cert.Stack3

end
-- ==== Proof.HostReads.lean ====
import proofs.«110285_j68805376082495_2_alg».proof.Proof.Gen.KernelIdeal.Launch
import proofs.«110285_j68805376082495_2_alg».proof.Proof.LibStack3
import Idealize.ShloMosaic.Lib.StableHlo.Run
import Idealize.ShloMosaic.Lib.Pipeline.Value
import Idealize.ShloMosaic.Lib.ValueIdx
import Idealize.ShloMosaic.Lib.ValueLayout

/-!
# The two host stretches, read at an index

Before the projection kernel the three inputs `[4, 2048, 1024]` are flattened to `[8192, 1024]` and stacked into one
`[3, 8192, 1024]` array, the three weight matrices into `[3, 1024, 1024]`, and the three bias vectors into
`[3, 1, 1024]`. Entry `(p, r, j)` of the stacked inputs is entry `(n, i, j)` of input `p` where `r = n · 2048 + i`:
the row-major position of `(n, i)` in `[4, 2048]`. Entry `(p, j, d)` of the stacked weights is entry `(j, d)` of weight
matrix `p`, and entry `(p, 0, d)` of the stacked biases is entry `d` of bias vector `p`.

After the projection kernel its `[3, 8192, 1024]` output is split back: member `p` is sliced out and its rows are
regrouped as `[4, 2048]`, so entry `(n, i, d)` of the `p`-th result is entry `(p, n · 2048 + i, d)` of the output.

Both facts hold for whatever contents the stretch is entered from.
-/

noncomputable section

namespace Cert.KernelIdeal.HostReads

open Idealize.ShloMosaic Idealize.ShloMosaic.ValueIdx Cert.KernelIdeal Cert.KernelIdeal.Gen Cert.Stack3

/-! ## The first stretch: the stacked inputs, weights and biases -/

/-- The three inputs, each flattened to `[8192, 1024]`, stacked along a new leading axis. -/
def stackX (x0 x1 x2 : S4x2048x1024.Idx → EReal) : S3x8192x1024.Idx → EReal :=
  concatenate S3x8192x1024 0
    [⟨S1x8192x1024, broadcastInDim S1x8192x1024 ![1, 2] bcast_S8192x1024_S1x8192x1024_1_2
        (shapeCast S8192x1024 x0 shapeCasts_S4x2048x1024_S8192x1024)⟩,
     ⟨S1x8192x1024, broadcastInDim S1x8192x1024 ![1, 2] bcast_S8192x1024_S1x8192x1024_1_2
        (shapeCast S8192x1024 x1 shapeCasts_S4x2048x1024_S8192x1024)⟩,
     ⟨S1x8192x1024, broadcastInDim S1x8192x1024 ![1, 2] bcast_S8192x1024_S1x8192x1024_1_2
        (shapeCast S8192x1024 x2 shapeCasts_S4x2048x1024_S8192x1024)⟩]
    concatenates_S1x8192x1024_S1x8192x1024_S1x8192x1024_S3x8192x1024_d0

/-- The three weight matrices stacked along a new leading axis. -/
def stackW (w0 w1 w2 : S1024x1024.Idx → EReal) : S3x1024x1024.Idx → EReal :=
  concatenate S3x1024x1024 0
    [⟨S1x1024x1024, broadcastInDim S1x1024x1024 ![1, 2] bcast_S1024x1024_S1x1024x1024_1_2 w0⟩,
     ⟨S1x1024x1024, broadcastInDim S1x1024x1024 ![1, 2] bcast_S1024x1024_S1x1024x1024_1_2 w1⟩,
     ⟨S1x1024x1024, broadcastInDim S1x1024x1024 ![1, 2] bcast_S1024x1024_S1x1024x1024_1_2 w2⟩]
    concatenates_S1x1024x1024_S1x1024x1024_S1x1024x1024_S3x1024x1024_d0

/-- The three bias vectors stacked along a new leading axis, each as a one-row matrix. -/
def stackB (b0 b1 b2 : S1024.Idx → EReal) : S3x1x1024.Idx → EReal :=
  shapeCast S3x1x1024
    (concatenate S3x1024 0
      [⟨S1x1024, broadcastInDim S1x1024 ![1] bcast_S1024_S1x1024_1 b0⟩,
       ⟨S1x1024, broadcastInDim S1x1024 ![1] bcast_S1024_S1x1024_1 b1⟩,
       ⟨S1x1024, broadcastInDim S1x1024 ![1] bcast_S1024_S1x1024_1 b2⟩]
      concatenates_S1x1024_S1x1024_S1x1024_S3x1024_d0)
    shapeCasts_S3x1024_S3x1x1024

theorem after0_v6 (W : Valuation τ sig (Elt Ideal)) :
    (StableHlo.after (hostOps0 (F := Ideal)) W (Proc.devRef .tc main_v6) : S3x8192x1024.Idx → EReal)
      = stackX (W (Proc.devRef .tc main_arg0)) (W (Proc.devRef .tc main_arg1)) (W (Proc.devRef .tc main_arg2)) := by
  host_results
  rfl

theorem after0_v10 (W : Valuation τ sig (Elt Ideal)) :
    (StableHlo.after (hostOps0 (F := Ideal)) W (Proc.devRef .tc main_v10) : S3x1024x1024.Idx → EReal)
      = stackW (W (Proc.devRef .tc main_arg3)) (W (Proc.devRef .tc main_arg5)) (W (Proc.devRef .tc main_arg7)) := by
  host_results
  rfl

theorem after0_v15 (W : Valuation τ sig (Elt Ideal)) :
    (StableHlo.after (hostOps0 (F := Ideal)) W (Proc.devRef .tc main_v15) : S3x1x1024.Idx → EReal)
      = stackB (W (Proc.devRef .tc main_arg4)) (W (Proc.devRef .tc main_arg6)) (W (Proc.devRef .tc main_arg8)) := by
  host_results
  rfl

/-! ## The first stretch read at an index -/

/-- Member 0 of the stacked inputs is the first input: row `r = n · 2048 + i` of the stack's member is row `(n, i)` of the input. -/
theorem after0_v6_apply_0 (W : Valuation τ sig (Elt Ideal)) (n : Fin 4) (i : Fin 2048) (j : Fin 1024) (r : Fin 8192)
    (hr : r.val = n.val * 2048 + i.val) :
    (StableHlo.after (hostOps0 (F := Ideal)) W (Proc.devRef .tc main_v6) : S3x8192x1024.Idx → EReal) (ix3 (0 : Fin 3) r j)
      = (W (Proc.devRef .tc main_arg0) : S4x2048x1024.Idx → EReal) (ix3 n i j) := by
  rw [after0_v6]
  unfold stackX
  refine (concat3_1ab_apply_0 _ _ _ _ r j).trans ?_
  refine (broadcastInDim_ab_1ab_apply _ _ (0 : Fin 1) r j).trans ?_
  exact shapeCast_mab_Mb_apply _ _ n i j r hr

/-- Member 1 of the stacked inputs is the second input: row `r = n · 2048 + i` of the stack's member is row `(n, i)` of the input. -/
theorem after0_v6_apply_1 (W : Valuation τ sig (Elt Ideal)) (n : Fin 4) (i : Fin 2048) (j : Fin 1024) (r : Fin 8192)
    (hr : r.val = n.val * 2048 + i.val) :
    (StableHlo.after (hostOps0 (F := Ideal)) W (Proc.devRef .tc main_v6) : S3x8192x1024.Idx → EReal) (ix3 (1 : Fin 3) r j)
      = (W (Proc.devRef .tc main_arg1) : S4x2048x1024.Idx → EReal) (ix3 n i j) := by
  rw [after0_v6]
  unfold stackX
  refine (concat3_1ab_apply_1 _ _ _ _ r j).trans ?_
  refine (broadcastInDim_ab_1ab_apply _ _ (0 : Fin 1) r j).trans ?_
  exact shapeCast_mab_Mb_apply _ _ n i j r hr

/-- Member 2 of the stacked inputs is the third input: row `r = n · 2048 + i` of the stack's member is row `(n, i)` of the input. -/
theorem after0_v6_apply_2 (W : Valuation τ sig (Elt Ideal)) (n : Fin 4) (i : Fin 2048) (j : Fin 1024) (r : Fin 8192)
    (hr : r.val = n.val * 2048 + i.val) :
    (StableHlo.after (hostOps0 (F := Ideal)) W (Proc.devRef .tc main_v6) : S3x8192x1024.Idx → EReal) (ix3 (2 : Fin 3) r j)
      = (W (Proc.devRef .tc main_arg2) : S4x2048x1024.Idx → EReal) (ix3 n i j) := by
  rw [after0_v6]
  unfold stackX
  refine (concat3_1ab_apply_2 _ _ _ _ r j).trans ?_
  refine (broadcastInDim_ab_1ab_apply _ _ (0 : Fin 1) r j).trans ?_
  exact shapeCast_mab_Mb_apply _ _ n i j r hr

/-- Member 0 of the stacked weights is the first weight matrix. -/
theorem after0_v10_apply_0 (W : Valuation τ sig (Elt Ideal)) (j d : Fin 1024) :
    (StableHlo.after (hostOps0 (F := Ideal)) W (Proc.devRef .tc main_v10) : S3x1024x1024.Idx → EReal) (ix3 (0 : Fin 3) j d)
      = (W (Proc.devRef .tc main_arg3) : S1024x1024.Idx → EReal) (ix2 j d) := by
  rw [after0_v10]
  unfold stackW
  refine (concat3_1ab_apply_0 _ _ _ _ j d).trans ?_
  exact broadcastInDim_ab_1ab_apply _ _ (0 : Fin 1) j d

/-- Member 1 of the stacked weights is the second weight matrix. -/
theorem after0_v10_apply_1 (W : Valuation τ sig (Elt Ideal)) (j d : Fin 1024) :
    (StableHlo.after (hostOps0 (F := Ideal)) W (Proc.devRef .tc main_v10) : S3x1024x1024.Idx → EReal) (ix3 (1 : Fin 3) j d)
      = (W (Proc.devRef .tc main_arg5) : S1024x1024.Idx → EReal) (ix2 j d) := by
  rw [after0_v10]
  unfold stackW
  refine (concat3_1ab_apply_1 _ _ _ _ j d).trans ?_
  exact broadcastInDim_ab_1ab_apply _ _ (0 : Fin 1) j d

/-- Member 2 of the stacked weights is the third weight matrix. -/
theorem after0_v10_apply_2 (W : Valuation τ sig (Elt Ideal)) (j d : Fin 1024) :
    (StableHlo.after (hostOps0 (F := Ideal)) W (Proc.devRef .tc main_v10) : S3x1024x1024.Idx → EReal) (ix3 (2 : Fin 3) j d)
      = (W (Proc.devRef .tc main_arg7) : S1024x1024.Idx → EReal) (ix2 j d) := by
  rw [after0_v10]
  unfold stackW
  refine (concat3_1ab_apply_2 _ _ _ _ j d).trans ?_
  exact broadcastInDim_ab_1ab_apply _ _ (0 : Fin 1) j d

/-- Member 0 of the stacked biases is the first bias vector, as a one-row matrix. -/
theorem after0_v15_apply_0 (W : Valuation τ sig (Elt Ideal)) (d : Fin 1024) :
    (StableHlo.after (hostOps0 (F := Ideal)) W (Proc.devRef .tc main_v15) : S3x1x1024.Idx → EReal) (ix3 (0 : Fin 3) (0 : Fin 1) d)
      = (W (Proc.devRef .tc main_arg4) : S1024.Idx → EReal) (ix1 d) := by
  rw [after0_v15]
  unfold stackB
  refine (shapeCast_pb_p1b_apply _ _ (0 : Fin 3) (0 : Fin 1) d).trans ?_
  refine (concat3_1b_apply_0 _ _ _ _ d).trans ?_
  exact broadcastInDim_b_1b_apply _ _ (0 : Fin 1) d

/-- Member 1 of the stacked biases is the second bias vector, as a one-row matrix. -/
theorem after0_v15_apply_1 (W : Valuation τ sig (Elt Ideal)) (d : Fin 1024) :
    (StableHlo.after (hostOps0 (F := Ideal)) W (Proc.devRef .tc main_v15) : S3x1x1024.Idx → EReal) (ix3 (1 : Fin 3) (0 : Fin 1) d)
      = (W (Proc.devRef .tc main_arg6) : S1024.Idx → EReal) (ix1 d) := by
  rw [after0_v15]
  unfold stackB
  refine (shapeCast_pb_p1b_apply _ _ (1 : Fin 3) (0 : Fin 1) d).trans ?_
  refine (concat3_1b_apply_1 _ _ _ _ d).trans ?_
  exact broadcastInDim_b_1b_apply _ _ (0 : Fin 1) d

/-- Member 2 of the stacked biases is the third bias vector, as a one-row matrix. -/
theorem after0_v15_apply_2 (W : Valuation τ sig (Elt Ideal)) (d : Fin 1024) :
    (StableHlo.after (hostOps0 (F := Ideal)) W (Proc.devRef .tc main_v15) : S3x1x1024.Idx → EReal) (ix3 (2 : Fin 3) (0 : Fin 1) d)
      = (W (Proc.devRef .tc main_arg8) : S1024.Idx → EReal) (ix1 d) := by
  rw [after0_v15]
  unfold stackB
  refine (shapeCast_pb_p1b_apply _ _ (2 : Fin 3) (0 : Fin 1) d).trans ?_
  refine (concat3_1b_apply_2 _ _ _ _ d).trans ?_
  exact broadcastInDim_b_1b_apply _ _ (0 : Fin 1) d

/-! ## The second stretch read at an index: the projection kernel's output split back into three arrays -/

/-- The first projected array: member 0 of the projection kernel's output, its rows regrouped as `[4, 2048]`. -/
theorem after1_v19_apply (W : Valuation τ sig (Elt Ideal)) (n : Fin 4) (i : Fin 2048) (d : Fin 1024) (r : Fin 8192)
    (hr : r.val = n.val * 2048 + i.val) :
    (StableHlo.after (hostOps1 (F := Ideal)) W (Proc.devRef .tc main_v19) : S4x2048x1024.Idx → EReal) (ix3 n i d)
      = (W (Proc.devRef .tc main_v16) : S3x8192x1024.Idx → EReal) (ix3 (0 : Fin 3) r d) := by
  have e : (StableHlo.after (hostOps1 (F := Ideal)) W (Proc.devRef .tc main_v19) : S4x2048x1024.Idx → EReal)
      = shapeCast S4x2048x1024 (shapeCast S8192x1024
          (extractStridedSlice S1x8192x1024 ![0, 0, 0] (W (Proc.devRef .tc main_v16) : S3x8192x1024.Idx → EReal)
            slices_S3x8192x1024_S1x8192x1024_0_0_0)
          shapeCasts_S1x8192x1024_S8192x1024) shapeCasts_S8192x1024_S4x2048x1024 := by
    host_results
    rfl
  rw [e]
  refine (shapeCast_Mb_mab_apply _ _ n i d r hr).trans ?_
  refine (shapeCast_1ab_ab_apply _ _ r d).trans ?_
  exact slice_member_apply (0 : Fin 3) _ _ (0 : Fin 1) r d

/-- The second projected array: member 1 of the projection kernel's output, its rows regrouped as `[4, 2048]`. -/
theorem after1_v22_apply (W : Valuation τ sig (Elt Ideal)) (n : Fin 4) (i : Fin 2048) (d : Fin 1024) (r : Fin 8192)
    (hr : r.val = n.val * 2048 + i.val) :
    (StableHlo.after (hostOps1 (F := Ideal)) W (Proc.devRef .tc main_v22) : S4x2048x1024.Idx → EReal) (ix3 n i d)
      = (W (Proc.devRef .tc main_v16) : S3x8192x1024.Idx → EReal) (ix3 (1 : Fin 3) r d) := by
  have e : (StableHlo.after (hostOps1 (F := Ideal)) W (Proc.devRef .tc main_v22) : S4x2048x1024.Idx → EReal)
      = shapeCast S4x2048x1024 (shapeCast S8192x1024
          (extractStridedSlice S1x8192x1024 ![1, 0, 0] (W (Proc.devRef .tc main_v16) : S3x8192x1024.Idx → EReal)
            slices_S3x8192x1024_S1x8192x1024_1_0_0)
          shapeCasts_S1x8192x1024_S8192x1024) shapeCasts_S8192x1024_S4x2048x1024 := by
    host_results
    rfl
  rw [e]
  refine (shapeCast_Mb_mab_apply _ _ n i d r hr).trans ?_
  refine (shapeCast_1ab_ab_apply _ _ r d).trans ?_
  exact slice_member_apply (1 : Fin 3) _ _ (0 : Fin 1) r d

/-- The third projected array: member 2 of the projection kernel's output, its rows regrouped as `[4, 2048]`. -/
theorem after1_v25_apply (W : Valuation τ sig (Elt Ideal)) (n : Fin 4) (i : Fin 2048) (d : Fin 1024) (r : Fin 8192)
    (hr : r.val = n.val * 2048 + i.val) :
    (StableHlo.after (hostOps1 (F := Ideal)) W (Proc.devRef .tc main_v25) : S4x2048x1024.Idx → EReal) (ix3 n i d)
      = (W (Proc.devRef .tc main_v16) : S3x8192x1024.Idx → EReal) (ix3 (2 : Fin 3) r d) := by
  have e : (StableHlo.after (hostOps1 (F := Ideal)) W (Proc.devRef .tc main_v25) : S4x2048x1024.Idx → EReal)
      = shapeCast S4x2048x1024 (shapeCast S8192x1024
          (extractStridedSlice S1x8192x1024 ![2, 0, 0] (W (Proc.devRef .tc main_v16) : S3x8192x1024.Idx → EReal)
            slices_S3x8192x1024_S1x8192x1024_2_0_0)
          shapeCasts_S1x8192x1024_S8192x1024) shapeCasts_S8192x1024_S4x2048x1024 := by
    host_results
    rfl
  rw [e]
  refine (shapeCast_Mb_mab_apply _ _ n i d r hr).trans ?_
  refine (shapeCast_1ab_ab_apply _ _ r d).trans ?_
  exact slice_member_apply (2 : Fin 3) _ _ (0 : Fin 1) r d

end Cert.KernelIdeal.HostReads

end
-- ==== Proof.KernelValue.lean ====
/-
  The idealized kernel's result as one function of its nine arguments.

  Read from the end: the result array is the attention of the three arrays the second region finds; each of those is a
  member of the stacked projection sliced out and reshaped, row n·2048 + i of the stack for row (n, i); the stacked
  projection is Σ_j X (p, r, j) · W (p, j, d) + B (p, 0, d) of the stacked inputs, weights and biases; and member p of
  each stack is the p-th input, weight or bias. Substituting, the three arrays are the projections of query, key and
  value, and the result is the specification's `attn`.
-/
import proofs.«110285_j68805376082495_2_alg».proof.Proof.FrameArgs
import proofs.«110285_j68805376082495_2_alg».proof.Proof.ValProj
import proofs.«110285_j68805376082495_2_alg».proof.Proof.ValAttn
import proofs.«110285_j68805376082495_2_alg».proof.Proof.HostReads
import proofs.«110285_j68805376082495_2_alg».proof.Proof.AttnSpec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Cert.KernelIdeal.Gen Cert.KernelIdeal.Run Cert.KernelIdeal.HostReads

variable (m : (ℓ : Loc nD τ sig) → Buf (Elt Ideal) ℓ) (ρ : Dev nD → PrngReg)

/-- After the projection region the stack holds the stacked projection of what the first host stretch left. -/
theorem stack_eq (c : Dev nD) :
    (W2 m ρ c (Proc.devRef .tc main_v16) : Vec Ideal S3x8192x1024 .bf16)
      = stackProj (V1 m ρ c main_v6) (V1 m ρ c main_v10) (V1 m ρ c main_v15) :=
  (W2_arr m ρ c 3).trans (projFinal (V1 m ρ) c)

/-- After the attention region the result holds the attention of what the second host stretch left. -/
theorem result_eq (c : Dev nD) :
    (W4 m ρ c (Proc.devRef .tc main_v26) : Vec Ideal S4x2048x1024 .f32)
      = headAttn (V3 m ρ c main_v19) (V3 m ρ c main_v22) (V3 m ρ c main_v25) :=
  (W4_arr m ρ c 3).trans (attnFinal (V3 m ρ) c)

/-- Row (n, i) of the first array the attention region finds is the projection of the query input. -/
theorem member_q (c : Dev nD) (n : Fin 4) (i : Fin 2048) (d : Fin 1024) :
    (V3 m ρ c main_v19 : Vec Ideal S4x2048x1024 .bf16) (ix3 n i d)
      = Cert.AttnSpec.proj (m ((c : Thread nD τ).loc main_arg0)) (m ((c : Thread nD τ).loc main_arg3)) (m ((c : Thread nD τ).loc main_arg4)) n i d := by
  have hr : n.val * 2048 + i.val < 8192 := by have := n.isLt; have := i.isLt; omega
  refine (after1_v19_apply (W2 m ρ c) n i d ⟨n.val * 2048 + i.val, hr⟩ rfl).trans ?_
  rw [stack_eq]
  unfold stackProj Cert.AttnSpec.proj
  exact congrArg₂ (· + ·)
    (Finset.sum_congr rfl fun j _ => congrArg₂ (· * ·) (after0_v6_apply_0 (W0 m ρ c) n i j ⟨n.val * 2048 + i.val, hr⟩ rfl) (after0_v10_apply_0 (W0 m ρ c) j d))
    (after0_v15_apply_0 (W0 m ρ c) d)

/-- Row (n, i) of the second array the attention region finds is the projection of the key input. -/
theorem member_k (c : Dev nD) (n : Fin 4) (i : Fin 2048) (d : Fin 1024) :
    (V3 m ρ c main_v22 : Vec Ideal S4x2048x1024 .bf16) (ix3 n i d)
      = Cert.AttnSpec.proj (m ((c : Thread nD τ).loc main_arg1)) (m ((c : Thread nD τ).loc main_arg5)) (m ((c : Thread nD τ).loc main_arg6)) n i d := by
  have hr : n.val * 2048 + i.val < 8192 := by have := n.isLt; have := i.isLt; omega
  refine (after1_v22_apply (W2 m ρ c) n i d ⟨n.val * 2048 + i.val, hr⟩ rfl).trans ?_
  rw [stack_eq]
  unfold stackProj Cert.AttnSpec.proj
  exact congrArg₂ (· + ·)
    (Finset.sum_congr rfl fun j _ => congrArg₂ (· * ·) (after0_v6_apply_1 (W0 m ρ c) n i j ⟨n.val * 2048 + i.val, hr⟩ rfl) (after0_v10_apply_1 (W0 m ρ c) j d))
    (after0_v15_apply_1 (W0 m ρ c) d)

/-- Row (n, i) of the third array the attention region finds is the projection of the value input. -/
theorem member_v (c : Dev nD) (n : Fin 4) (i : Fin 2048) (d : Fin 1024) :
    (V3 m ρ c main_v25 : Vec Ideal S4x2048x1024 .bf16) (ix3 n i d)
      = Cert.AttnSpec.proj (m ((c : Thread nD τ).loc main_arg2)) (m ((c : Thread nD τ).loc main_arg7)) (m ((c : Thread nD τ).loc main_arg8)) n i d := by
  have hr : n.val * 2048 + i.val < 8192 := by have := n.isLt; have := i.isLt; omega
  refine (after1_v25_apply (W2 m ρ c) n i d ⟨n.val * 2048 + i.val, hr⟩ rfl).trans ?_
  rw [stack_eq]
  unfold stackProj Cert.AttnSpec.proj
  exact congrArg₂ (· + ·)
    (Finset.sum_congr rfl fun j _ => congrArg₂ (· * ·) (after0_v6_apply_2 (W0 m ρ c) n i j ⟨n.val * 2048 + i.val, hr⟩ rfl) (after0_v10_apply_2 (W0 m ρ c) j d))
    (after0_v15_apply_2 (W0 m ρ c) d)

/-- THE RESULT: the specification's function of the nine argument arrays. -/
theorem value_eq (c : Dev nD) :
    (W4 m ρ c (Proc.devRef .tc main_v26) : Vec Ideal S4x2048x1024 .f32)
      = Cert.AttnSpec.attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [result_eq]
  funext i
  unfold headAttn Cert.AttnSpec.attn Cert.AttnSpec.score
  exact congrArg₂ Cert.AttnSpec.aggAfter
    (funext fun j => congrArg (· * Cert.AttnSpec.scaleK)
      (Finset.sum_congr rfl fun c' _ => congrArg₂ (· * ·) (member_q m ρ c (i 0) (i 1) c') (member_k m ρ c (i 0) j c')))
    (funext fun j => member_v m ρ c (i 0) j (i 2))

/-- THE RUN, READ: every weakly fair execution terminates, faults nowhere, and ends with the result array at the
    specification's function of the arguments and the nine arguments as launched. -/
theorem run : θ_run defs (onTc (τ := τ) (main (F := Ideal))) ⟨m, fun _ => 0, ρ⟩ (fun r => ∀ c : Dev nD,
      r.2.mem ((c.tc : Thread nD τ).loc main_v26) = Cert.AttnSpec.attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v26 (by decide))).trans (value_eq m ρ c),
     (h c _ (mem_uc main_arg0 (by decide))).trans (W4_arg0 m ρ c),
     (h c _ (mem_uc main_arg1 (by decide))).trans (W4_arg1 m ρ c),
     (h c _ (mem_uc main_arg2 (by decide))).trans (W4_arg2 m ρ c),
     (h c _ (mem_uc main_arg3 (by decide))).trans (W4_arg3 m ρ c),
     (h c _ (mem_uc main_arg4 (by decide))).trans (W4_arg4 m ρ c),
     (h c _ (mem_uc main_arg5 (by decide))).trans (W4_arg5 m ρ c),
     (h c _ (mem_uc main_arg6 (by decide))).trans (W4_arg6 m ρ c),
     (h c _ (mem_uc main_arg7 (by decide))).trans (W4_arg7 m ρ c),
     (h c _ (mem_uc main_arg8 (by decide))).trans (W4_arg8 m ρ c)⟩)
    (run_all m ρ)

end Cert.KernelIdeal.Val

end
-- ==== Proof.RefRead.lean ====
import proofs.«110285_j68805376082495_2_alg».proof.Proof.Gen.ReferenceIdeal.Read
import proofs.«110285_j68805376082495_2_alg».proof.Proof.AttnSpec

/-!
# The reference program's result, read index by index

The reference computes three linear projections `q, k, v` of its inputs, the scores `q · kᵀ` scaled by
`1 / √1024`, a softmax of every score row, and the product of the softmax weights with `v`. Its softmax
normalises every weight BEFORE the aggregation:

  `out (n, i, d) = Σ_j (p_j / (0 + Σ_j' p_j')) · v (n, j, d)`,  `p_j = exp (e_j − max (−∞) (max-fold of e from −∞))`,

with `e_j` the scaled score of query row `(n, i)` against key row `j`. This file reads the program's
operations one at a time at explicit coordinates and states the result in exactly that arrangement, over
the shared specification's projections and scores.
-/

noncomputable section

namespace Cert.AttnRef

open Idealize.ShloMosaic Idealize.ShloMosaic.ValueIdx Cert.ReferenceIdeal Cert.ReferenceIdeal.Gen
  Cert.ReferenceIdeal.Read Cert.AttnSpec

/-- The reference's scale: the quotient of the literal `1.0` by the square root of the literal `1024.0`. -/
def scaleR : EReal := Ideal.div (Ideal.ofBits .f32 0x3F800000#32) (Ideal.sqrt (Ideal.ofBits .f32 0x44800000#32))

/-- The reference's row maximum: the fold of `max` from the literal `−∞`, joined once more with that literal. -/
def rowMaxR (e : Fin 2048 → EReal) : EReal :=
  max (Ideal.ofBits .f32 0xFF800000#32)
    ((Finset.univ : Finset (Fin 2048)).fold max (Ideal.ofBits .f32 0xFF800000#32) e)

/-- The reference's unnormalised weights. -/
def wtR (e : Fin 2048 → EReal) (j : Fin 2048) : EReal := Ideal.exp (e j - rowMaxR e)

/-- The reference's normaliser: the literal zero plus the sum of the weights. -/
def sumR (e : Fin 2048 → EReal) : EReal := Ideal.ofBits .f32 0x00000000#32 + ∑ j, wtR e j

/-- The weighted aggregate of `m` with every weight normalised BEFORE the aggregation. -/
def aggBefore (e m : Fin 2048 → EReal) : EReal := ∑ j, Ideal.div (wtR e j) (sumR e) * m j

/-- The reference's arrangement as one function of the nine argument arrays. -/
def refArr (query key value : SX.Idx → EReal) (Wq : SW.Idx → EReal) (bq : SB.Idx → EReal) (Wk : SW.Idx → EReal)
    (bk : SB.Idx → EReal) (Wv : SW.Idx → EReal) (bv : SB.Idx → EReal) : SX.Idx → EReal := fun i =>
  aggBefore (fun j => score scaleR (proj query Wq bq) (proj key Wk bk) (i 0) (i 1) j)
    (fun j => proj value Wv bv (i 0) j (i 2))

/-! ## The projections -/

theorem lidx0 (n : Fin 4) (r : Fin 2048) (d k : Fin 1024) : lidx_main_v0 (ix3 n r d) k = ix3 n r k :=
  funext fun a => Fin.ext (by match a with | ⟨0, _⟩ => rfl | ⟨1, _⟩ => rfl | ⟨2, _⟩ => rfl)

theorem ridx0 (n : Fin 4) (r : Fin 2048) (d k : Fin 1024) : ridx_main_v0 (ix3 n r d) k = ix2 k d :=
  funext fun a => Fin.ext (by match a with | ⟨0, _⟩ => rfl | ⟨1, _⟩ => rfl)

theorem bidx (n : Fin 4) (r : Fin 2048) (d : Fin 1024) : idx_main_v1 (idx_main_v2 (ix3 n r d)) = ix1 d :=
  funext fun a => Fin.ext (by match a with | ⟨0, _⟩ => rfl)

/-- A projection of the reference, at `(n, r, d)`: the row of `x` against the column of `w`, plus the bias. -/
theorem v3_read (x : SX.Idx → EReal) (w : SW.Idx → EReal) (b : SB.Idx → EReal) (n : Fin 4) (r : Fin 2048)
    (d : Fin 1024) : val_main_v3 (F := Ideal) x w b (ix3 n r d) = proj x w b n r d := by
  rw [val_main_v3_apply, val_main_v0_apply, val_main_v2_apply, val_main_v1_apply]
  simp only [lidx0, ridx0, bidx, Ideal.addf_def]
  rfl

/-- The three projections are one operation applied to three triples of arguments. -/
theorem v7_read (x : SX.Idx → EReal) (w : SW.Idx → EReal) (b : SB.Idx → EReal) (n : Fin 4) (r : Fin 2048)
    (d : Fin 1024) : val_main_v7 (F := Ideal) x w b (ix3 n r d) = proj x w b n r d := v3_read x w b n r d

theorem v11_read (x : SX.Idx → EReal) (w : SW.Idx → EReal) (b : SB.Idx → EReal) (n : Fin 4) (r : Fin 2048)
    (d : Fin 1024) : val_main_v11 (F := Ideal) x w b (ix3 n r d) = proj x w b n r d := v3_read x w b n r d

/-! ## The scaled scores -/

theorem lidx14 (n : Fin 4) (i j : Fin 2048) (k : Fin 1024) : lidx_main_v14 (ix3 n i j) k = ix3 n i k :=
  funext fun a => Fin.ext (by match a with | ⟨0, _⟩ => rfl | ⟨1, _⟩ => rfl | ⟨2, _⟩ => rfl)

theorem ridx14 (n : Fin 4) (i j : Fin 2048) (k : Fin 1024) : ridx_main_v14 (ix3 n i j) k = ix3 n j k :=
  funext fun a => Fin.ext (by match a with | ⟨0, _⟩ => rfl | ⟨1, _⟩ => rfl | ⟨2, _⟩ => rfl)

/-- The broadcast scale, at any index, is the quotient of the two literals. -/
theorem v15_read (i : S4x2048x2048.Idx) : val_main_v15 (F := Ideal) i = scaleR := by
  rw [val_main_v15_apply, val_main_v13_apply, val_main_v12_apply, val_main_cst_apply, val_main_cst_0_apply]
  rfl

/-- The scaled score of query row `(n, i)` against key row `j`. -/
theorem v16_read (a0 a1 : SX.Idx → EReal) (a3 : SW.Idx → EReal) (a4 : SB.Idx → EReal) (a5 : SW.Idx → EReal)
    (a6 : SB.Idx → EReal) (n : Fin 4) (i j : Fin 2048) :
    val_main_v16 (F := Ideal) a0 a1 a3 a4 a5 a6 (ix3 n i j)
      = score scaleR (proj a0 a3 a4) (proj a1 a5 a6) n i j := by
  rw [val_main_v16_apply, val_main_v14_apply, v15_read]
  simp only [lidx14, ridx14, v3_read, v7_read, Ideal.mulf_def]
  rfl

/-! ## The row maximum -/

/-- Putting column `k` back into the reduced index `(n, i)` gives `(n, i, k)`. -/
theorem lift_last3 (h : S4x2048x2048.Reduces [2] S4x2048) (n : Fin 4) (i : Fin 2048)
    (k : Fin (S4x2048x2048.size 2)) : h.lift (ix2 n i) k = ix3 n i (⟨k.val, k.isLt⟩ : Fin 2048) := by
  funext c; apply Fin.ext
  match c with | ⟨0, _⟩ => rfl | ⟨1, _⟩ => rfl | ⟨2, _⟩ => rfl

/-- The maximum-reduce along the key axis, at row `(n, i)`: the fold of `max` over the row from the literal `−∞`. -/
theorem v17_read (a0 a1 : SX.Idx → EReal) (a3 : SW.Idx → EReal) (a4 : SB.Idx → EReal) (a5 : SW.Idx → EReal)
    (a6 : SB.Idx → EReal) (n : Fin 4) (i : Fin 2048) :
    val_main_v17 (F := Ideal) a0 a1 a3 a4 a5 a6 (ix2 n i)
      = (Finset.univ : Finset (Fin 2048)).fold max (Ideal.ofBits .f32 0xFF800000#32)
          (fun j => score scaleR (proj a0 a3 a4) (proj a1 a5 a6) n i j) := by
  have h : S4x2048x2048.Reduces [2] S4x2048 := by decide
  unfold val_main_v17
  rw [Host.reduce_eq_fold_single FloatOps.maximumf _ _ reducesTo_S4x2048x2048_S4x2048_d2 h h_S_]
  exact congrArg (fun f => Finset.fold max (Ideal.ofBits .f32 0xFF800000#32) f (Finset.univ : Finset (Fin 2048)))
    (funext fun k => (congrArg (val_main_v16 (F := Ideal) a0 a1 a3 a4 a5 a6) (lift_last3 h n i k)).trans
      (v16_read a0 a1 a3 a4 a5 a6 n i _))

/-- The row maximum the weights subtract, broadcast back along the key axis. -/
theorem v21_read (a0 a1 : SX.Idx → EReal) (a3 : SW.Idx → EReal) (a4 : SB.Idx → EReal) (a5 : SW.Idx → EReal)
    (a6 : SB.Idx → EReal) (n : Fin 4) (i j : Fin 2048) :
    val_main_v21 (F := Ideal) a0 a1 a3 a4 a5 a6 (ix3 n i j)
      = rowMaxR (fun j => score scaleR (proj a0 a3 a4) (proj a1 a5 a6) n i j) := by
  have e : idx_main_v20 (idx_main_v21 (ix3 n i j)) = ix2 n i :=
    funext fun a => Fin.ext (by match a with | ⟨0, _⟩ => rfl | ⟨1, _⟩ => rfl)
  rw [val_main_v21_apply, val_main_v20_apply, e, val_main_v19_apply, v17_read, val_main_v18_apply,
    val_main_cst_2_apply]
  rfl

/-! ## The weights, their sum, and the normalised weights -/

theorem v23_read (a0 a1 : SX.Idx → EReal) (a3 : SW.Idx → EReal) (a4 : SB.Idx → EReal) (a5 : SW.Idx → EReal)
    (a6 : SB.Idx → EReal) (n : Fin 4) (i j : Fin 2048) :
    val_main_v23 (F := Ideal) a0 a1 a3 a4 a5 a6 (ix3 n i j)
      = wtR (fun j => score scaleR (proj a0 a3 a4) (proj a1 a5 a6) n i j) j := by
  rw [val_main_v23_apply, val_main_v22_apply, v16_read, v21_read]
  rfl

theorem v26_read (a0 a1 : SX.Idx → EReal) (a3 : SW.Idx → EReal) (a4 : SB.Idx → EReal) (a5 : SW.Idx → EReal)
    (a6 : SB.Idx → EReal) (n : Fin 4) (i j : Fin 2048) :
    val_main_v26 (F := Ideal) a0 a1 a3 a4 a5 a6 (ix3 n i j)
      = sumR (fun j => score scaleR (proj a0 a3 a4) (proj a1 a5 a6) n i j) := by
  have e : idx_main_v25 (idx_main_v26 (ix3 n i j)) = ix2 n i :=
    funext fun a => Fin.ext (by match a with | ⟨0, _⟩ => rfl | ⟨1, _⟩ => rfl)
  have e24 : ∀ k : Fin 2048, idx_main_v24 (ix2 n i) k = ix3 n i k := fun k =>
    funext fun a => Fin.ext (by match a with | ⟨0, _⟩ => rfl | ⟨1, _⟩ => rfl | ⟨2, _⟩ => rfl)
  rw [val_main_v26_apply, val_main_v25_apply, e, val_main_v24_apply, val_main_cst_3_apply]
  simp only [e24, v23_read]
  rfl

theorem v27_read (a0 a1 : SX.Idx → EReal) (a3 : SW.Idx → EReal) (a4 : SB.Idx → EReal) (a5 : SW.Idx → EReal)
    (a6 : SB.Idx → EReal) (n : Fin 4) (i j : Fin 2048) :
    val_main_v27 (F := Ideal) a0 a1 a3 a4 a5 a6 (ix3 n i j)
      = Ideal.div (wtR (fun j => score scaleR (proj a0 a3 a4) (proj a1 a5 a6) n i j) j)
          (sumR (fun j => score scaleR (proj a0 a3 a4) (proj a1 a5 a6) n i j)) := by
  rw [val_main_v27_apply, v23_read, v26_read]
  rfl

/-! ## The result -/

theorem lidx28 (n : Fin 4) (r : Fin 2048) (d : Fin 1024) (k : Fin 2048) : lidx_main_v28 (ix3 n r d) k = ix3 n r k :=
  funext fun a => Fin.ext (by match a with | ⟨0, _⟩ => rfl | ⟨1, _⟩ => rfl | ⟨2, _⟩ => rfl)

theorem ridx28 (n : Fin 4) (r : Fin 2048) (d : Fin 1024) (k : Fin 2048) : ridx_main_v28 (ix3 n r d) k = ix3 n k d :=
  funext fun a => Fin.ext (by match a with | ⟨0, _⟩ => rfl | ⟨1, _⟩ => rfl | ⟨2, _⟩ => rfl)

/-- The reference's result is its own arrangement over the specification's projections and scores. -/
theorem ref_read (a0 a1 a2 : SX.Idx → EReal) (a3 : SW.Idx → EReal) (a4 : SB.Idx → EReal) (a5 : SW.Idx → EReal)
    (a6 : SB.Idx → EReal) (a7 : SW.Idx → EReal) (a8 : SB.Idx → EReal) :
    val_main_v28 (F := Ideal) a0 a1 a2 a3 a4 a5 a6 a7 a8 = refArr a0 a1 a2 a3 a4 a5 a6 a7 a8 := by
  funext i
  obtain ⟨n, r, d, rfl⟩ : ∃ (n : Fin 4) (r : Fin 2048) (d : Fin 1024), i = ix3 n r d := ⟨i 0, i 1, i 2, eq_ix3 i⟩
  rw [val_main_v28_apply]
  simp only [lidx28, ridx28, v27_read, v11_read]
  rfl

end Cert.AttnRef

end
-- ==== Proof.LibSoftmaxAgg.lean ====
import Idealize.ShloMosaic.PureOps.Ideal
import Mathlib.Algebra.BigOperators.Ring.Finset
import Mathlib.Analysis.SpecialFunctions.Exp

/-!
# A softmax-weighted sum, normalised before or after the sum

General facts over the extended reals, for a finite row of real logits `e` and real values `m`:

* a finite sum of coerced reals is the coerced sum; the fold of `max` from `⊥` over a non-empty row of reals is a real;
* with `p j = exp (e j − M)` for the row maximum `M` and `Z = ∑ p`, the two arrangements
  `(∑ⱼ p j · m j) / Z` (normalise the aggregate once) and `∑ⱼ (p j / Z) · m j` (normalise each weight)
  are the same extended real: every `p j` is a positive real, `Z` a positive real, so the division is a
  product with a real reciprocal and distributes over the finite sum.
-/

noncomputable section

namespace Cert.SoftmaxAgg

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two coerced reals is a coerced real. -/
theorem max_coe (x y : ℝ) : max (x : EReal) (y : EReal) = ((max x y : ℝ) : EReal) :=
  (Monotone.map_max (fun _ _ h => EReal.coe_le_coe_iff.mpr h)).symm

/-- The fold of `max` from `⊥` over a row of reals is `⊥` (an empty row) or a real. -/
theorem fold_max_bot_or_coe {ι : Type*} [DecidableEq ι] (f : ι → ℝ) (s : Finset ι) :
    s.fold max (⊥ : EReal) (fun i => (f i : EReal)) = ⊥ ∨ ∃ r : ℝ, s.fold max (⊥ : EReal) (fun i => (f i : EReal)) = r := by
  induction s using Finset.induction_on with
  | empty => exact Or.inl Finset.fold_empty
  | insert a s ha ih =>
    refine Or.inr ?_
    rw [Finset.fold_insert ha]
    rcases ih with h | ⟨r, h⟩
    · exact ⟨f a, by rw [h]; exact max_bot_right _⟩
    · exact ⟨max (f a) r, by rw [h]; exact max_coe _ _⟩

/-- Over a non-empty row of reals the fold of `max` from `⊥` is a real. -/
theorem fold_max_coe {n : ℕ} (hn : 0 < n) (f : Fin n → ℝ) :
    ∃ r : ℝ, (Finset.univ : Finset (Fin n)).fold max (⊥ : EReal) (fun i => (f i : EReal)) = r := by
  have hins : (Finset.univ : Finset (Fin n)) = insert ⟨0, hn⟩ (Finset.univ.erase ⟨0, hn⟩) :=
    (Finset.insert_erase (Finset.mem_univ _)).symm
  rw [hins, Finset.fold_insert (Finset.notMem_erase _ _)]
  rcases fold_max_bot_or_coe f (Finset.univ.erase ⟨0, hn⟩) with h | ⟨r, h⟩
  · exact ⟨f ⟨0, hn⟩, by rw [h]; exact max_bot_right _⟩
  · exact ⟨max (f ⟨0, hn⟩) r, by rw [h]; exact max_coe _ _⟩

/-- Dividing a finite sum of products of reals by a non-zero real, or dividing each left factor first: one value. -/
theorem div_sum_mul {ι : Type*} (s : Finset ι) (p m : ι → ℝ) (d : ℝ) (hd : d ≠ 0) :
    Ideal.div (∑ j ∈ s, (p j : EReal) * (m j : EReal)) (d : EReal)
      = ∑ j ∈ s, Ideal.div (p j : EReal) (d : EReal) * (m j : EReal) := by
  have hL : (∑ j ∈ s, (p j : EReal) * (m j : EReal)) = ((∑ j ∈ s, p j * m j : ℝ) : EReal) := by
    rw [coe_sum]; exact Finset.sum_congr rfl fun j _ => (EReal.coe_mul _ _).symm
  have hR : ∀ j, Ideal.div (p j : EReal) (d : EReal) * (m j : EReal) = ((p j * (1 / d) * m j : ℝ) : EReal) := fun j => by
    rw [Ideal.div_coe hd, ← EReal.coe_mul, ← EReal.coe_mul]
  rw [hL, Ideal.div_coe hd, ← EReal.coe_mul, Finset.sum_congr rfl (fun j _ => hR j), ← coe_sum]
  refine congrArg _ ?_
  rw [Finset.sum_mul]
  exact Finset.sum_congr rfl fun j _ => by ring

/-- THE LAW. For a non-empty row of real logits `e` with maximum `M` (the fold of `max` from `⊥`), weights
    `p j = exp (e j − M)` and real values `m`: normalising the weighted sum by `Z = ∑ p` once, or each weight
    before the sum, gives the same extended real. -/
theorem normalize_after_eq_before {n : ℕ} (hn : 0 < n) (e m : Fin n → EReal)
    (he : ∀ j, ∃ r : ℝ, e j = r) (hm : ∀ j, ∃ r : ℝ, m j = r) :
    Ideal.div (∑ j, Ideal.exp (e j - Finset.univ.fold max (⊥ : EReal) e) * m j)
        (∑ j, Ideal.exp (e j - Finset.univ.fold max (⊥ : EReal) e))
      = ∑ j, Ideal.div (Ideal.exp (e j - Finset.univ.fold max (⊥ : EReal) e))
          (∑ j, Ideal.exp (e j - Finset.univ.fold max (⊥ : EReal) e)) * m j := by
  choose er her using he
  choose mr hmr using hm
  obtain rfl : e = fun j => (er j : EReal) := funext her
  obtain rfl : m = fun j => (mr j : EReal) := funext hmr
  obtain ⟨M, hM⟩ := fold_max_coe hn er
  rw [hM]
  have hp : ∀ j, Ideal.exp ((er j : EReal) - (M : EReal)) = ((Real.exp (er j - M) : ℝ) : EReal) := fun j => by
    rw [← EReal.coe_sub]; rfl
  simp only [hp]
  have hZ : (∑ j, ((Real.exp (er j - M) : ℝ) : EReal)) = ((∑ j, Real.exp (er j - M) : ℝ) : EReal) := (coe_sum _ _).symm
  rw [hZ]
  have hpos : (∑ j : Fin n, Real.exp (er j - M)) ≠ 0 :=
    ne_of_gt (Finset.sum_pos (fun j _ => Real.exp_pos _) ⟨⟨0, hn⟩, Finset.mem_univ _⟩)
  exact div_sum_mul Finset.univ (fun j => Real.exp (er j - M)) mr _ hpos

end Cert.SoftmaxAgg

end
-- ==== Proof.LibRealOps.lean ====
import Idealize.ShloMosaic.PureOps.Ideal
import Idealize.ShloMosaic.PureOps.Ideal.Laws
import Idealize.ShloMosaic.PureOps.IdealRules

/-!
# Real-valued arrays are closed under the whole-array operations

At the ideal instance a float array is a function into the extended reals. An array is
*all real* when every entry is (the image of) a real number. This file shows that the
elementwise arithmetic, the re-indexings (broadcast, gather), the finite sums (scatter-add,
dot products) and the quotient 1 / max(y, 1) keep an array all real: a finite sum or a
product of reals is a real, the maximum of two reals is a real, and a quotient of reals with a
nonzero denominator is a real.
-/

open Idealize Idealize.ShloMosaic

namespace Cert.Proof.RealOps

/-- Every entry of the array is a real number. -/
def AllReal {ι : Type*} (f : ι → EReal) : Prop := ∀ i, ∃ r : ℝ, f i = (r : EReal)

/-! ### Scalars: sums, products, maxima and finite sums of reals are reals -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb
  exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb
  exact ⟨x - y, (EReal.coe_sub x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb
  exact ⟨x * y, (EReal.coe_mul x y).symm⟩

theorem real_max {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb
  exact ⟨max x y, (EReal.coe_strictMono.monotone.map_max).symm⟩

/-- A finite sum of reals is a real: by induction on the index set, one summand at a time. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by rw [Finset.sum_empty, EReal.coe_zero]⟩
  | insert a t ha ih =>
    rw [Finset.sum_insert ha]
    exact real_add (h a (Finset.mem_insert_self a t)) (ih fun i hi => h i (Finset.mem_insert_of_mem hi))

/-! ### 1. Elementwise arithmetic -/

theorem AllReal.addf {s : Shape} {x y : FVec Ideal s .f32} (hx : AllReal x) (hy : AllReal y) :
    AllReal (ShloMosaic.addf x y) := fun i => real_add (hx i) (hy i)

theorem AllReal.subf {s : Shape} {x y : FVec Ideal s .f32} (hx : AllReal x) (hy : AllReal y) :
    AllReal (ShloMosaic.subf x y) := fun i => real_sub (hx i) (hy i)

theorem AllReal.mulf {s : Shape} {x y : FVec Ideal s .f32} (hx : AllReal x) (hy : AllReal y) :
    AllReal (ShloMosaic.mulf x y) := fun i => real_mul (hx i) (hy i)

theorem AllReal.maximumf {s : Shape} {x y : FVec Ideal s .f32} (hx : AllReal x) (hy : AllReal y) :
    AllReal (ShloMosaic.maximumf x y) := fun i => real_max (hx i) (hy i)

/-! ### 2. Re-indexings: the result reads the operand at some index -/

theorem AllReal.broadcastInDim {s t : Shape} (dims : Fin s.rank → Fin t.rank) (h : s.BroadcastsInDim t dims)
    {x : FVec Ideal s .f32} (hx : AllReal x) : AllReal (ShloMosaic.broadcastInDim t dims h x) :=
  fun _ => hx _

theorem AllReal.gather {s si t : Shape} {w : Nat} (d : GatherDims s si t) {x : FVec Ideal s .f32} (idx : IVec si w)
    (hx : AllReal x) : AllReal (Host.gather d x idx) :=
  fun _ => hx _

/-! ### 3. Scatter-add: the operand's entry plus a finite sum of update entries -/

theorem AllReal.scatterAdd {s si u : Shape} {w : Nat} (d : ScatterDims s si u) {x : FVec Ideal s .f32}
    (idx : IVec si w) {upd : FVec Ideal u .f32} (hx : AllReal x) (hu : AllReal upd) :
    AllReal (Host.scatterAdd (F := Ideal) d x idx upd) := by
  intro i
  unfold Host.scatterAdd
  rw [Ideal.hostScatterAdd_def]
  unfold Ideal.hostScatterAdd
  exact real_add (hx i) (real_sum _ _ fun j _ => hu j)

/-! ### 4. Dot products: a finite sum of products -/

theorem AllReal.dotGeneral {sl sr so : Shape} (d : DotDims sl sr so) (prec : Option ContractPrecision)
    {l : FVec Ideal sl .f32} {r : FVec Ideal sr .f32} (hl : AllReal l) (hr : AllReal r) :
    AllReal (Host.dotGeneral (F := Ideal) d prec l r) := by
  intro j
  show ∃ q : ℝ, FloatOps.dotGeneral d prec .single l r j = (q : EReal)
  rw [Ideal.dotGeneral_apply]
  exact real_sum _ _ fun k _ => real_mul (hl _) (hr _)

/-- With any all-real accumulator. -/
theorem AllReal.matmul_acc {sl sr so : Shape} (d : DotDims sl sr so) (prec : Option ContractPrecision)
    {l : FVec Ideal sl .f32} {r : FVec Ideal sr .f32} {acc : FVec Ideal so .f32}
    (hl : AllReal l) (hr : AllReal r) (hacc : AllReal acc) :
    AllReal (FloatOps.matmul d prec l r acc) := by
  intro j
  rw [Ideal.matmul_apply]
  exact real_add (hacc j) (real_sum _ _ fun k _ => real_mul (hl _) (hr _))

theorem AllReal.matmul {sl sr so : Shape} (d : DotDims sl sr so) (prec : Option ContractPrecision)
    {l : FVec Ideal sl .f32} {r : FVec Ideal sr .f32} (hl : AllReal l) (hr : AllReal r) :
    AllReal (FloatOps.matmul d prec l r (constant so .f32 0x00000000#32)) := by
  intro j
  rw [Ideal.matmul_constant_zero_apply]
  exact real_sum _ _ fun k _ => real_mul (hl _) (hr _)

/-! ### 5. The constants 0 and 1 -/

/-- The pattern of the float 1.0 denotes the extended real 1. -/
theorem ofBits_one_f32 : Ideal.ofBits .f32 0x3F800000#32 = 1 := IdealRules.sign_bit.ideal_onePat .f32

theorem constant_zero_apply (S : Shape) (i : S.Idx) : constant (F := Ideal) S .f32 0x00000000#32 i = 0 :=
  Ideal.ofBits_zero_f32

theorem constant_one_apply (S : Shape) (i : S.Idx) : constant (F := Ideal) S .f32 0x3F800000#32 i = 1 :=
  ofBits_one_f32

theorem AllReal.constant_zero (S : Shape) : AllReal (constant (F := Ideal) S .f32 0x00000000#32) :=
  fun i => ⟨0, by rw [constant_zero_apply, EReal.coe_zero]⟩

theorem AllReal.constant_one (S : Shape) : AllReal (constant (F := Ideal) S .f32 0x3F800000#32) :=
  fun i => ⟨1, by rw [constant_one_apply, EReal.coe_one]⟩

/-! ### 6. The reciprocal degree 1 / max(y, 1) -/

/-- A quotient of reals with a nonzero denominator is a real. -/
theorem real_div {a b : EReal} (ha : ∃ r : ℝ, a = (r : EReal)) (hb : ∃ r : ℝ, b = (r : EReal)) (h0 : b ≠ 0) :
    ∃ r : ℝ, Ideal.div a b = (r : EReal) := by
  obtain ⟨x, rfl⟩ := ha; obtain ⟨y, rfl⟩ := hb
  have hy : y ≠ 0 := fun h => h0 (by rw [h, EReal.coe_zero])
  exact ⟨x * (1 / y), by rw [Ideal.div_coe hy, EReal.coe_mul]⟩

/-- Elementwise division by an all-real array with no zero entry. -/
theorem AllReal.hostDivf {s : Shape} {x y : FVec Ideal s .f32} (hx : AllReal x) (hy : AllReal y)
    (h0 : ∀ i, y i ≠ 0) : AllReal (Host.divf (F := Ideal) x y) :=
  fun i => real_div (hx i) (hy i) (h0 i)

/-- For a real r the maximum of r and 1 is the real max r 1, which is at least 1 and so not zero:
    the quotient 1 / max(r, 1) is the real 1 / max r 1. -/
theorem div_one_max_one (r : ℝ) : Ideal.div 1 (max (r : EReal) 1) = ((1 / max r 1 : ℝ) : EReal) := by
  have h1 : max (r : EReal) 1 = ((max r 1 : ℝ) : EReal) := by
    rw [← EReal.coe_one]; exact (EReal.coe_strictMono.monotone.map_max).symm
  have hne : max r 1 ≠ 0 := ne_of_gt (lt_of_lt_of_le one_pos (le_max_right r 1))
  rw [h1, Ideal.div_coe hne, one_mul]

/-- The value of the reciprocal degree at an index where y is the real r. -/
theorem recipDeg_apply {s0 s : Shape} (dims : Fin s0.rank → Fin s.rank) (hb : s0.BroadcastsInDim s dims)
    (y : FVec Ideal s .f32) (i : s.Idx) {r : ℝ} (hr : y i = (r : EReal)) :
    Host.divf (F := Ideal) (ShloMosaic.broadcastInDim s dims hb (constant s0 .f32 0x3F800000#32))
        (ShloMosaic.maximumf y (ShloMosaic.broadcastInDim s dims hb (constant s0 .f32 0x3F800000#32))) i
      = ((1 / max r 1 : ℝ) : EReal) := by
  show Ideal.div (Ideal.ofBits .f32 0x3F800000#32) (max (y i) (Ideal.ofBits .f32 0x3F800000#32)) = _
  rw [ofBits_one_f32, hr, div_one_max_one]

theorem AllReal.recipDeg {s0 s : Shape} (dims : Fin s0.rank → Fin s.rank) (hb : s0.BroadcastsInDim s dims)
    {y : FVec Ideal s .f32} (hy : AllReal y) :
    AllReal (Host.divf (F := Ideal) (ShloMosaic.broadcastInDim s dims hb (constant s0 .f32 0x3F800000#32))
      (ShloMosaic.maximumf y (ShloMosaic.broadcastInDim s dims hb (constant s0 .f32 0x3F800000#32)))) := by
  intro i
  obtain ⟨r, hr⟩ := hy i
  exact ⟨1 / max r 1, recipDeg_apply dims hb y i hr⟩

/-- The literal instance: the scalar 1 broadcast from the rank-zero shape. -/
example {s : Shape} (hb : (⟨0, ![]⟩ : Shape).BroadcastsInDim s ![]) {y : FVec Ideal s .f32} (hy : AllReal y) :
    AllReal (Host.divf (F := Ideal) (ShloMosaic.broadcastInDim s ![] hb (constant (⟨0, ![]⟩ : Shape) .f32 0x3F800000#32))
      (ShloMosaic.maximumf y (ShloMosaic.broadcastInDim s ![] hb (constant (⟨0, ![]⟩ : Shape) .f32 0x3F800000#32)))) := by
  apply AllReal.recipDeg; exact hy

/-! ### 7. The log-softmax identity on reals

For real entries a k, the row maximum M (a fold of max from ⊥ over a nonempty index set) is a
real, the sum S of the exponentials exp (a k - M) is a positive real, so log S is a real; and on
reals  x - (M + L) = (x - M) - L,  while max ⊥ M = M. -/

/-- The coercion of a finite sum of reals is the sum of the coercions. -/
theorem coe_sum_real {ι : Type*} (t : Finset ι) (g : ι → ℝ) :
    ∑ i ∈ t, ((g i : ℝ) : EReal) = ((∑ i ∈ t, g i : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-- The fold of max from ⊥ over a nonempty finite set of reals is a real: the first element
    absorbs ⊥, and each further step is a maximum of two reals. -/
theorem real_fold_max {ι : Type*} (t : Finset ι) (f : ι → EReal) (h : ∀ i ∈ t, ∃ r : ℝ, f i = (r : EReal))
    (ht : t.Nonempty) : ∃ r : ℝ, t.fold max (⊥ : EReal) f = (r : EReal) := by
  classical
  induction t using Finset.induction_on with
  | empty => exact absurd ht Finset.not_nonempty_empty
  | insert a s ha ih =>
    rw [Finset.fold_insert ha]
    rcases s.eq_empty_or_nonempty with rfl | hs
    · rw [Finset.fold_empty, max_bot_right]; exact h a (Finset.mem_insert_self a _)
    · exact real_max (h a (Finset.mem_insert_self a _)) (ih (fun i hi => h i (Finset.mem_insert_of_mem hi)) hs)

/-- The logarithm of a positive real is a real. -/
theorem log_coe_of_pos {σ : ℝ} (h : 0 < σ) : Ideal.log (σ : EReal) = ((Real.log σ : ℝ) : EReal) := by
  rw [Ideal.log_coe, if_neg (not_le.mpr h)]

/-- On reals, subtracting a sum is subtracting twice; and ⊥ is neutral for max. -/
theorem sub_add_eq_sub_max_bot_sub {x m l : EReal} (hx : ∃ r : ℝ, x = (r : EReal)) (hm : ∃ r : ℝ, m = (r : EReal))
    (hl : ∃ r : ℝ, l = (r : EReal)) : x - (m + l) = (x - max ⊥ m) - l := by
  obtain ⟨x, rfl⟩ := hx; obtain ⟨m, rfl⟩ := hm; obtain ⟨l, rfl⟩ := hl
  rw [max_bot_left, ← EReal.coe_add, ← EReal.coe_sub, ← EReal.coe_sub, ← EReal.coe_sub, sub_add_eq_sub_sub]

section LogSoftmax
variable {ι : Type*} [Fintype ι] [Nonempty ι]

/-- The row maximum is a real. -/
theorem real_rowMax {a : ι → EReal} (ha : AllReal a) :
    ∃ m : ℝ, Finset.univ.fold max (⊥ : EReal) a = (m : EReal) :=
  real_fold_max Finset.univ a (fun i _ => ha i) Finset.univ_nonempty

/-- The sum of the exponentials of the entries shifted by a real is a positive real. -/
theorem real_sumExp_pos {a : ι → EReal} (ha : AllReal a) {M : EReal} (hM : ∃ m : ℝ, M = (m : EReal)) :
    ∃ σ : ℝ, 0 < σ ∧ ∑ k, Ideal.exp (a k - M) = (σ : EReal) := by
  obtain ⟨m, rfl⟩ := hM
  choose r hr using ha
  refine ⟨∑ k, Real.exp (r k - m), Finset.sum_pos (fun k _ => Real.exp_pos _) Finset.univ_nonempty, ?_⟩
  rw [← coe_sum_real]
  exact Finset.sum_congr rfl fun k _ => by rw [hr k, ← EReal.coe_sub, Ideal.exp_coe]

/-- Its logarithm is a real. -/
theorem real_logSumExp {a : ι → EReal} (ha : AllReal a) {M : EReal} (hM : ∃ m : ℝ, M = (m : EReal)) :
    ∃ l : ℝ, Ideal.log (∑ k, Ideal.exp (a k - M)) = (l : EReal) := by
  obtain ⟨σ, hσ, hS⟩ := real_sumExp_pos ha hM
  exact ⟨Real.log σ, by rw [hS, log_coe_of_pos hσ]⟩

/-- The log-softmax identity, with the row maximum and the sum of exponentials spelled out. -/
theorem logSoftmax_eq {a : ι → EReal} (ha : AllReal a) (j : ι) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  sub_add_eq_sub_max_bot_sub (ha j) (real_rowMax ha) (real_logSumExp ha (real_rowMax ha))

end LogSoftmax

/-- The instance at rows of 47 entries. -/
example (a : Fin 47 → EReal) (ha : AllReal a) (j : Fin 47) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  logSoftmax_eq ha j

/-! ### The lemmas fire by apply on the forms a program states -/

example {s si u : Shape} {w : Nat} (d : ScatterDims s si u) (x : FVec Ideal s .f32) (idx : IVec si w)
    (upd : FVec Ideal u .f32) (hx : AllReal x) (hu : AllReal upd) : AllReal (Host.scatterAdd d x idx upd) := by
  apply AllReal.scatterAdd <;> assumption

example {sl sr so : Shape} (d : DotDims sl sr so) (l : FVec Ideal sl .f32) (r : FVec Ideal sr .f32)
    (hl : AllReal l) (hr : AllReal r) : AllReal (Host.dotGeneral d none l r) := by
  apply AllReal.dotGeneral <;> assumption

example {sl sr so : Shape} (d : DotDims sl sr so) (l : FVec Ideal sl .f32) (r : FVec Ideal sr .f32)
    (hl : AllReal l) (hr : AllReal r) : AllReal (ShloMosaic.matmul d none l r (constant so .f32 0x00000000#32)) := by
  apply AllReal.matmul <;> assumption

example {s : Shape} (hb : (⟨0, ![]⟩ : Shape).BroadcastsInDim s ![]) :
    AllReal (ShloMosaic.broadcastInDim s ![] hb (constant (F := Ideal) (⟨0, ![]⟩ : Shape) .f32 0x00000000#32)) := by
  apply AllReal.broadcastInDim; apply AllReal.constant_zero

example {s si t : Shape} {w : Nat} (d : GatherDims s si t) (x y : FVec Ideal s .f32) (idx : IVec si w)
    (hx : AllReal x) (hy : AllReal y) : AllReal (Host.gather d (ShloMosaic.mulf (ShloMosaic.addf x y) (ShloMosaic.maximumf x y)) idx) := by
  apply AllReal.gather; apply AllReal.mulf
  · exact AllReal.addf hx hy
  · exact AllReal.maximumf hx hy

end Cert.Proof.RealOps
-- ==== Proof.RefLaw.lean ====
import proofs.«110285_j68805376082495_2_alg».proof.Proof.RefRead
import proofs.«110285_j68805376082495_2_alg».proof.Proof.LibSoftmaxAgg
import proofs.«110285_j68805376082495_2_alg».proof.Proof.LibRealOps

/-!
# The reference's arrangement equals the specification on real inputs

The reference normalises every softmax weight before the aggregation, the specification normalises the
aggregate once. For real inputs the two are one extended real:

* the projections are finite sums of products of reals plus a real, so they are reals, and so are the scores;
* the reference's scale `1 / √1024` is the real `1/32 = 2⁻⁵`, the value of the specification's literal scale
  (`1024 = 32²`, so the square root is exactly 32);
* the literal `−∞` is `⊥`, neutral for `max`, and the literal zero is neutral for `+`;
* every weight `exp (e_j − M)` is a positive real, so their sum `Z` is a positive real and division by `Z`
  distributes over the finite sum: `Σ_j (p_j / Z) · m_j = (Σ_j p_j · m_j) / Z`.
-/

noncomputable section

namespace Cert.AttnRef

open Idealize.ShloMosaic Idealize.ShloMosaic.ValueIdx Cert.ReferenceIdeal Cert.ReferenceIdeal.Read Cert.AttnSpec
  Cert.Proof.RealOps

/-! ## The literals -/

/-- The pattern of the float `1024.0` denotes the real 1024. -/
theorem ofBits_1024 : Ideal.ofBits .f32 0x44800000#32 = ((1024 : ℝ) : EReal) := by
  simp [Ideal.ofBits, Ideal.ieee, -EReal.coe_mul]; norm_num

/-- The pattern `0x3D000000` denotes the real `2⁻⁵ = 1/32`. -/
theorem ofBits_inv32 : Ideal.ofBits .f32 0x3D000000#32 = ((1 / 32 : ℝ) : EReal) := by
  simp [Ideal.ofBits, Ideal.ieee, -EReal.coe_mul]; norm_num

/-- The pattern of the float `−∞` denotes `⊥`. -/
theorem ofBits_negInf : Ideal.ofBits .f32 0xFF800000#32 = (⊥ : EReal) := by
  simp [Ideal.ofBits, Ideal.ieee]

/-- `1024 = 32²`, so its square root is exactly 32. -/
theorem sqrt_1024 : Real.sqrt 1024 = 32 := by
  rw [show (1024 : ℝ) = 32 ^ 2 by norm_num]
  exact Real.sqrt_sq (by norm_num)

/-- The reference's scale `1.0 / √1024.0` is the specification's literal scale: both are the real `1/32`. -/
theorem scaleR_eq : scaleR = scaleK := by
  unfold scaleR scaleK
  rw [ofBits_one_f32, ofBits_1024, ofBits_inv32, Ideal.sqrt_coe, if_neg (by norm_num), sqrt_1024,
    Ideal.div_coe (by norm_num), one_mul]

theorem scaleK_real : ∃ r : ℝ, scaleK = (r : EReal) := ⟨1 / 32, ofBits_inv32⟩

/-! ## Projections and scores of real arrays are real -/

theorem proj_real {x : SX.Idx → EReal} {w : SW.Idx → EReal} {b : SB.Idx → EReal}
    (hx : ∀ i, ∃ r : ℝ, x i = (r : EReal)) (hw : ∀ i, ∃ r : ℝ, w i = (r : EReal))
    (hb : ∀ i, ∃ r : ℝ, b i = (r : EReal)) (n : Fin 4) (r : Fin 2048) (d : Fin 1024) :
    ∃ t : ℝ, proj x w b n r d = (t : EReal) :=
  real_add (real_sum _ _ fun _ _ => real_mul (hx _) (hw _)) (hb _)

theorem score_real {c : EReal} {q k : Fin 4 → Fin 2048 → Fin 1024 → EReal} (hc : ∃ r : ℝ, c = (r : EReal))
    (hq : ∀ n i d, ∃ r : ℝ, q n i d = (r : EReal)) (hk : ∀ n i d, ∃ r : ℝ, k n i d = (r : EReal))
    (n : Fin 4) (i j : Fin 2048) : ∃ t : ℝ, score c q k n i j = (t : EReal) :=
  real_mul (real_sum _ _ fun _ _ => real_mul (hq _ _ _) (hk _ _ _)) hc

/-! ## The two arrangements of the softmax-weighted aggregate -/

/-- The literal `−∞` is neutral for `max`: the reference's row maximum is the fold of `max` from `⊥`. -/
theorem rowMaxR_eq (e : Fin 2048 → EReal) : rowMaxR e = rowMax e := by
  unfold rowMaxR rowMax
  rw [ofBits_negInf]
  exact max_bot_left _

theorem wtR_eq (e : Fin 2048 → EReal) (j : Fin 2048) : wtR e j = wt e j := by
  unfold wtR wt
  rw [rowMaxR_eq]

/-- The literal zero is neutral for `+`: the reference's normaliser is the sum of the weights. -/
theorem sumR_eq (e : Fin 2048 → EReal) : sumR e = ∑ j, wt e j := by
  unfold sumR
  rw [Ideal.ofBits_zero_f32, zero_add]
  exact Finset.sum_congr rfl fun j _ => wtR_eq e j

/-- For a row of real scores and real values, normalising each weight before the aggregation or the aggregate
    once gives the same extended real. -/
theorem aggBefore_eq_aggAfter (e m : Fin 2048 → EReal) (he : ∀ j, ∃ r : ℝ, e j = (r : EReal))
    (hm : ∀ j, ∃ r : ℝ, m j = (r : EReal)) : aggBefore e m = aggAfter e m := by
  unfold aggBefore
  simp only [wtR_eq, sumR_eq]
  exact (Cert.SoftmaxAgg.normalize_after_eq_before (by norm_num) e m he hm).symm

/-! ## The reference is the specification -/

/-- On real inputs the reference's result is the specification, index by index. -/
theorem ref_eq (a0 a1 a2 : FVec Ideal S4x2048x1024 .f32) (a3 : FVec Ideal S1024x1024 .f32)
    (a4 : FVec Ideal S1024 .f32) (a5 : FVec Ideal S1024x1024 .f32) (a6 : FVec Ideal S1024 .f32)
    (a7 : FVec Ideal S1024x1024 .f32) (a8 : FVec Ideal S1024 .f32)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal))
    (h8 : ∀ i, ∃ r : ℝ, a8 i = (r : EReal)) :
    val_main_v28 (F := Ideal) a0 a1 a2 a3 a4 a5 a6 a7 a8 = attn a0 a1 a2 a3 a4 a5 a6 a7 a8 := by
  rw [ref_read]
  funext i
  unfold refArr attn
  rw [scaleR_eq]
  exact aggBefore_eq_aggAfter _ _
    (fun j => score_real scaleK_real (proj_real h0 h3 h4) (proj_real h1 h5 h6) _ _ j)
    (fun j => proj_real h2 h7 h8 _ j _)

end Cert.AttnRef

end
-- ==== Proof.Finite.lean ====
/-
  Finiteness read back from the precondition.  The precondition is a conjunction of nine
  "every entry has absolute value strictly below +∞" tests, one per argument array.  At the
  extended reals an entry x with max x (-x) < ⊤ is neither ⊤ nor ⊥, hence a real number.
-/
import proofs.«110285_j68805376082495_2_alg».proof.Pre_finite_inputs
import Idealize.ShloMosaic.Lib.ReduceAll
import Idealize.ShloMosaic.Lib.ValueIdx
import Idealize.ShloMosaic.PureOps.Ideal

namespace Cert.AttnFinite

open Idealize.ShloMosaic Cert.Pre_finite_inputs

/-- The rank-0 shape has exactly one index. -/
instance : Subsingleton S_.Idx := ⟨fun a b => funext fun d => d.elim0⟩

/-- An extended real whose absolute value max x (-x) compares strictly below the word of +∞ is real. -/
theorem real_of_abs_lt_inf (x : EReal)
    (h : FloatOps.cmpf (F := Ideal) (φ := .f32) .olt (FloatOps.hostAbsf x)
          (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | top => simp at h
  | coe r => exact ⟨r, rfl⟩

/-- One `all (|x| < +∞)` reduction that came out 1 makes every entry of x a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := fun i =>
  real_of_abs_lt_inf (x i) (Host.reduce_andi_all _ _ hr hu ValueIdx.ix0 e i)

/-- From the precondition (the nine-fold conjunction is the bit 1) every entry of every argument
    array is a real number. -/
theorem reals [Cert.Pre_finite_inputs.Facts]
    (a0 a1 a2 : FVec Ideal S4x2048x1024 .f32)
    (a3 : FVec Ideal S1024x1024 .f32) (a4 : FVec Ideal S1024 .f32)
    (a5 : FVec Ideal S1024x1024 .f32) (a6 : FVec Ideal S1024 .f32)
    (a7 : FVec Ideal S1024x1024 .f32) (a8 : FVec Ideal S1024 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) := by
  have h0 := congrFun h ValueIdx.ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨⟨e0, e1⟩, e2⟩, e3⟩, e4⟩, e5⟩, e6⟩, e7⟩, e8⟩ := h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7,
    all_real a8 _ _ _ e8⟩

end Cert.AttnFinite
-- ==== Proof.lean ====
/-
  The certificate of a fused query/key/value projection followed by single-head attention, against its jnp reference.

  The kernel stacks the three inputs, weights and biases, projects all three in one gridded call (each grid point one
  [1024, 1024] × [1024, 1024] product plus its bias row), slices the three projections back out and runs attention with the
  whole key and value sequences of a batch entry resident: scores q·kᵀ scaled by 1/32, row maximum, exponentials, their
  row sum, the aggregate with the values, and ONE division by the row sum at the end. The reference projects the three
  inputs separately, scales the scores by 1/√1024, and normalises each weight by the row sum BEFORE aggregating.

  Over the extended reals the two are one function of finite inputs: √1024 = 32 exactly, and for real scores and real
  values (Σ_j p_j · v_j) / Σ_j p_j = Σ_j (p_j / Σ_j p_j) · v_j because every p_j is a positive real. Both frames of the
  kernel come from one run of @main's four segments (host operations, projection region, host operations, attention
  region) whose post names every unscoped buffer; the reference's frame and value from its run read back operation by
  operation.
-/
import proofs.«110285_j68805376082495_2_alg».proof.Defs
import proofs.«110285_j68805376082495_2_alg».proof.Proof.Gen.Kernel
import proofs.«110285_j68805376082495_2_alg».proof.Proof.Gen.KernelIdeal
import proofs.«110285_j68805376082495_2_alg».proof.Proof.Gen.ReferenceIdeal
import proofs.«110285_j68805376082495_2_alg».proof.Proof.Gen.Pre_finite_inputs
import proofs.«110285_j68805376082495_2_alg».proof.Proof.Gen.ReferenceIdeal.Run
import proofs.«110285_j68805376082495_2_alg».proof.Proof.Gen.ReferenceIdeal.Read
import proofs.«110285_j68805376082495_2_alg».proof.Proof.BitsFrameArgs
import proofs.«110285_j68805376082495_2_alg».proof.Proof.FrameArgs
import proofs.«110285_j68805376082495_2_alg».proof.Proof.KernelValue
import proofs.«110285_j68805376082495_2_alg».proof.Proof.RefLaw
import proofs.«110285_j68805376082495_2_alg».proof.Proof.Finite
import Idealize.ShloMosaic.Adequacy
import Idealize.ShloMosaic.Init

noncomputable section

namespace Cert.Proof

open Idealize.ShloMosaic Idealize.SL.Sem

/-- The word-level kernel runs to the end, faults nowhere and leaves its arguments as launched. -/
theorem frame_k : Cert.frame_Kernel := fun m ρ _ => Cert.Kernel.Run.frame m ρ

/-- So does the idealized kernel. -/
theorem frame_ki : Cert.frame_KernelIdeal := fun m ρ _ => Cert.KernelIdeal.Run.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- From memories agreeing on the nine arguments, all finite, both idealized programs run to the end and leave the same
    array: the kernel's result is the specification's function of its arguments (read off its run, region by region),
    and the reference's result term, read operation by operation, is the same function once every argument entry is a
    real — the only place finiteness is used: it lets the softmax normalisation move across the aggregation. -/
theorem algebraic : Cert.algebraic_KernelIdeal_ReferenceIdeal := by
  intro m ρ m' ρ' hpre hagree
  refine ⟨fun c => Cert.AttnSpec.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8⟩ := hagree c
  obtain ⟨h0, h1, h2, h3, h4, h5, h6, h7, h8⟩ := Cert.AttnFinite.reals _ _ _ _ _ _ _ _ _ (hpre c)
  rw [Cert.ReferenceIdeal.Read.val_main_v28_eq, g0, g1, g2, g3, g4, g5, g6, g7, g8]
  exact Cert.AttnRef.ref_eq _ _ _ _ _ _ _ _ _ h0 h1 h2 h3 h4 h5 h6 h7 h8

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
